-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S8x16x1024x1024 : Shape := ⟨4, ![8, 16, 1024, 1024]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel

variable [Facts]

def fn {F : FTy → Type} [FloatOps F] (main_arg0 : FVec F S8x16x1024x64 .f32) (main_arg1 : FVec F S8x16x1024x64 .f32) (main_arg2 : FVec F S8x16x1024x64 .f32) (main_arg3 : IVec S8x16x1024x1024 1) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  main_v13
-- ==== Kernel.lean ====
abbrev S8x16x1024x64 : Shape := ⟨4, ![8, 16, 1024, 64]⟩
abbrev S8x16x1024x1024 : Shape := ⟨4, ![8, 16, 1024, 1024]⟩
abbrev S8x16x1024 : Shape := ⟨3, ![8, 16, 1024]⟩
abbrev S1x16x128x64 : Shape := ⟨4, ![1, 16, 128, 64]⟩
abbrev S1x16x1024x64 : Shape := ⟨4, ![1, 16, 1024, 64]⟩
abbrev S1x16x128x1024 : Shape := ⟨4, ![1, 16, 128, 1024]⟩
abbrev S1x16x1024 : Shape := ⟨3, ![1, 16, 1024]⟩
abbrev S16x128x64 : Shape := ⟨3, ![16, 128, 64]⟩
abbrev S16x1024x64 : Shape := ⟨3, ![16, 1024, 64]⟩
abbrev S16x128x1024 : Shape := ⟨3, ![16, 128, 1024]⟩
abbrev S16x128 : Shape := ⟨2, ![16, 128]⟩
abbrev S16x128x1 : Shape := ⟨3, ![16, 128, 1]⟩
abbrev S16x1024 : Shape := ⟨2, ![16, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x16x1024x1024, .i1⟩
  | .hbm, ⟨4, _⟩ => ⟨S8x16x1024x1024, .i32⟩
  | .hbm, ⟨5, _⟩ => ⟨S8x16x1024x64, .f32⟩
  | .hbm, ⟨6, _⟩ => ⟨S8x16x1024x1024, .f32⟩
  | .hbm, ⟨7, _⟩ => ⟨S8x16x1024, .f32⟩
  | .local _ .vmem, ⟨0, _⟩ => ⟨S1x16x128x64, .f32⟩
  | .local _ .vmem, ⟨1, _⟩ => ⟨S1x16x128x64, .f32⟩
  | .local _ .vmem, ⟨2, _⟩ => ⟨S1x16x1024x64, .f32⟩
  | .local _ .vmem, ⟨3, _⟩ => ⟨S1x16x1024x64, .f32⟩
  | .local _ .vmem, ⟨4, _⟩ => ⟨S1x16x1024x64, .f32⟩
  | .local _ .vmem, ⟨5, _⟩ => ⟨S1x16x1024x64, .f32⟩
  | .local _ .vmem, ⟨6, _⟩ => ⟨S1x16x128x1024, .i32⟩
  | .local _ .vmem, ⟨7, _⟩ => ⟨S1x16x128x1024, .i32⟩
  | .local _ .vmem, ⟨8, _⟩ => ⟨S1x16x128x64, .f32⟩
  | .local _ .vmem, ⟨9, _⟩ => ⟨S1x16x128x64, .f32⟩
  | .local _ .vmem, ⟨10, _⟩ => ⟨S1x16x128x1024, .f32⟩
  | .local _ .vmem, ⟨11, _⟩ => ⟨S1x16x128x1024, .f32⟩
  | .local _ .vmem, ⟨12, _⟩ => ⟨S1x16x1024, .f32⟩
  | .local _ .vmem, ⟨13, _⟩ => ⟨S1x16x1024, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  natLt_1_32 : 1 < 32
  inb_S1x16x128x64_S1x16x128x64_0_0_0_0 : ∀ a, (![0, 0, 0, 0] : Fin 4 → Nat) a + S1x16x128x64.size a ≤ S1x16x128x64.size a
  h_S1x16x128x64 : 0 < S1x16x128x64.numel
  shapeCasts_S1x16x128x64_S16x128x64 : S1x16x128x64.ShapeCasts S16x128x64
  inb_S1x16x1024x64_S1x16x1024x64_0_0_0_0 : ∀ a, (![0, 0, 0, 0] : Fin 4 → Nat) a + S1x16x1024x64.size a ≤ S1x16x1024x64.size a
  h_S1x16x1024x64 : 0 < S1x16x1024x64.numel
  shapeCasts_S1x16x1024x64_S16x1024x64 : S1x16x1024x64.ShapeCasts S16x1024x64
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S1x16x128x1024_S16x128x1024 : S1x16x128x1024.ShapeCasts S16x128x1024
  reduces_S16x128x1024_S16x128 : S16x128x1024.Reduces [2] S16x128
  shapeCasts_S16x128_S16x128x1 : S16x128.ShapeCasts S16x128x1
  broadcasts_S16x128x1_S16x128x1024 : S16x128x1.Broadcasts S16x128x1024
  shapeCasts_S16x128x1024_S1x16x128x1024 : S16x128x1024.ShapeCasts S1x16x128x1024
  shapeCasts_S16x128x64_S1x16x128x64 : S16x128x64.ShapeCasts S1x16x128x64
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S16x1024_S1x16x1024 : S16x1024.ShapeCasts S1x16x1024
  reduces_S16x128x1024_S16x1024 : S16x128x1024.Reduces [1] S16x1024
  dot_S16x128x64_S16x1024x64_S16x128x1024_2_2_1_1_0_0_wf : DotDims.WF S16x128x64 S16x1024x64 S16x128x1024 [2] [2] [1] [1] [0] [0]
  dot_S16x128x1024_S16x1024x64_S16x128x64_2_1_1_2_0_0_wf : DotDims.WF S16x128x1024 S16x1024x64 S16x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x64.size a ≤ S8x16x1024x64.size a
  hwx0_0 : ∀ i : grid0.Coords, EltTy.bits .f32 = 32 ∨ (Rect.block (s := S8x16x1024x64) S1x16x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x1024x64.size a ≤ S8x16x1024x64.size a
  hwx0_1 : ∀ i : grid0.Coords, EltTy.bits .f32 = 32 ∨ (Rect.block (s := S8x16x1024x64) S1x16x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1024x64.size a ≤ S8x16x1024x64.size a
  hwx0_2 : ∀ i : grid0.Coords, EltTy.bits .f32 = 32 ∨ (Rect.block (s := S8x16x1024x64) S1x16x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128x1024.size a ≤ S8x16x1024x1024.size a
  hwx0_3 : ∀ i : grid0.Coords, EltTy.bits .i32 = 32 ∨ (Rect.block (s := S8x16x1024x1024) S1x16x128x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x64.size a ≤ S8x16x1024x64.size a
  hwx0_4 : ∀ i : grid0.Coords, EltTy.bits .f32 = 32 ∨ (Rect.block (s := S8x16x1024x64) S1x16x128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x128x1024.size a ≤ S8x16x1024x1024.size a
  hwx0_5 : ∀ i : grid0.Coords, EltTy.bits .f32 = 32 ∨ (Rect.block (s := S8x16x1024x1024) S1x16x128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x1024.size a ≤ S8x16x1024.size a
  hwx0_6 : ∀ i : grid0.Coords, EltTy.bits .f32 = 32 ∨ (Rect.block (s := S8x16x1024) S1x16x1024.size (cc0_transform_6 i) (hinb0_6 i)).WholeWords (EltTy.packing .f32)

variable [Facts₀]

def dot_S16x128x64_S16x1024x64_S16x128x1024_2_2_1_1_0_0 : DotDims S16x128x64 S16x1024x64 S16x128x1024 where
  lhsContracting := [2]
  rhsContracting := [2]
  lhsNonContracting := [1]
  rhsNonContracting := [1]
  lhsBatch := [0]
  rhsBatch := [0]
  wf := dot_S16x128x64_S16x1024x64_S16x128x1024_2_2_1_1_0_0_wf
def dot_S16x128x1024_S16x1024x64_S16x128x64_2_1_1_2_0_0 : DotDims S16x128x1024 S16x1024x64 S16x128x64 where
  lhsContracting := [2]
  rhsContracting := [1]
  lhsNonContracting := [1]
  rhsNonContracting := [2]
  lhsBatch := [0]
  rhsBatch := [0]
  wf := dot_S16x128x1024_S16x1024x64_S16x128x64_2_1_1_2_0_0_wf

abbrev win0_0 : Pipeline.Window sig grid0 :=
  Pipeline.Window.ofSpec (Memref.whole main_arg0) S1x16x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16x128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x16x128x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x16x128x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x16x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x16x1024x1024, .i1⟩
  | .hbm, ⟨4, _⟩ => ⟨S8x16x1024x1024, .f32⟩
  | .hbm, ⟨5, _⟩ => ⟨S_, .f32⟩
  | .hbm, ⟨6, _⟩ => ⟨S8x16x1024x1024, .f32⟩
  | .hbm, ⟨7, _⟩ => ⟨S8x16x1024x1024, .f32⟩
  | .hbm, ⟨8, _⟩ => ⟨S_, .f32⟩
  | .hbm, ⟨9, _⟩ => ⟨S_, .f32⟩
  | .hbm, ⟨10, _⟩ => ⟨S8x16x1024x1024, .f32⟩
  | .hbm, ⟨11, _⟩ => ⟨S8x16x1024x1024, .f32⟩
  | .hbm, ⟨12, _⟩ => ⟨S_, .f32⟩
  | .hbm, ⟨13, _⟩ => ⟨S8x16x1024, .f32⟩
  | .hbm, ⟨14, _⟩ => ⟨S_, .f32⟩
  | .hbm, ⟨15, _⟩ => ⟨S8x16x1024, .f32⟩
  | .hbm, ⟨16, _⟩ => ⟨S8x16x1024, .f32⟩
  | .hbm, ⟨17, _⟩ => ⟨S8x16x1024x1, .f32⟩
  | .hbm, ⟨18, _⟩ => ⟨S8x16x1024x1024, .f32⟩
  | .hbm, ⟨19, _⟩ => ⟨S8x16x1024x1024, .f32⟩
  | .hbm, ⟨20, _⟩ => ⟨S8x16x1024x1024, .f32⟩
  | .hbm, ⟨21, _⟩ => ⟨S_, .f32⟩
  | .hbm, ⟨22, _⟩ => ⟨S8x16x1024, .f32⟩
  | .hbm, ⟨23, _⟩ => ⟨S8x16x1024x1, .f32⟩
  | .hbm, ⟨24, _⟩ => ⟨S8x16x1024x1024, .f32⟩
  | .hbm, ⟨25, _⟩ => ⟨S8x16x1024x1024, .f32⟩
  | .hbm, ⟨26, _⟩ => ⟨S_, .f32⟩
  | .hbm, ⟨27, _⟩ => ⟨S8x16x1024, .f32⟩
  | .hbm, ⟨28, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  reducesTo_S8x16x1024x1024_S8x16x1024_d2 : S8x16x1024x1024.ReducesTo [2] S8x16x1024
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.Spec.lean ====
/-
  The mathematics of one attention head, stated once, over the extended reals.

  A query row `qr` (64 numbers), the 1024 key rows `kf` and a row `mr` of mask bits give a row of 1024 scores:
  the fill value −10⁹ where the mask bit is set, and elsewhere the inner product of the query row with the key row,
  times 1/8. The row's softmax is exp(s k − max s) divided by the sum over the row of those exponentials, the
  maximum taken from −∞. The three results are functions of these rows: the attention weights themselves, their
  products with the value rows summed over the keys, and their sums over the 1024 queries.

  Nothing here asks for finiteness: both programs compute these very expressions, and the only rearrangements
  between them (max against −∞; a sum over 1024 queries taken 128 at a time from 0) hold on all extended reals.
-/
import Idealize.ShloMosaic.PureOps.Ideal
import Idealize.ShloMosaic.PureOps.Ideal.Laws
import Idealize.ShloMosaic.Lib.ValueIdx

noncomputable section

namespace Cert.Softmax

open Idealize.ShloMosaic Idealize.ShloMosaic.ValueIdx

/-- The [8, 16, 1024, 64] arrays (queries, keys, values, and the context result). -/
abbrev A4 : Shape := ⟨4, ![8, 16, 1024, 64]⟩
/-- The [8, 16, 1024, 1024] arrays (the mask and the attention weights). -/
abbrev P4 : Shape := ⟨4, ![8, 16, 1024, 1024]⟩
/-- The [8, 16, 1024] array of column sums. -/
abbrev C3 : Shape := ⟨3, ![8, 16, 1024]⟩

/-- One row of masked, scaled scores: −10⁹ where the mask bit is set, else (Σ_d qr d · kf k d) · 1/8. -/
def scoreRow (qr : Fin 64 → EReal) (kf : Fin 1024 → Fin 64 → EReal) (mr : Fin 1024 → BitVec 1) (k : Fin 1024) : EReal :=
  Scalar.select (mr k) (Ideal.ofBits .f32 0xCE6E6B28#32)
    ((∑ d : Fin 64, qr d * kf k d) * Ideal.ofBits .f32 0x3E000000#32)

/-- A row's maximum, taken from −∞. -/
def rowMax (s : Fin 1024 → EReal) : EReal :=
  (Finset.univ : Finset (Fin 1024)).fold max (Ideal.ofBits .f32 0xFF800000#32) s

/-- The softmax of a row at position `k`. -/
def softRow (s : Fin 1024 → EReal) (k : Fin 1024) : EReal :=
  Ideal.div (Ideal.exp (s k - rowMax s)) (∑ k' : Fin 1024, Ideal.exp (s k' - rowMax s))

/-- A row of attention weights from a query row, the key rows and a row of mask bits. -/
def attnRow (qr : Fin 64 → EReal) (kf : Fin 1024 → Fin 64 → EReal) (mr : Fin 1024 → BitVec 1) : Fin 1024 → EReal :=
  softRow (scoreRow qr kf mr)

/-- The attention weight of batch `b`, head `h`, query `q`, key `k`. -/
def attn (Q K : A4.Idx → EReal) (M : P4.Idx → BitVec 1) (b : Fin 8) (h : Fin 16) (q k : Fin 1024) : EReal :=
  attnRow (fun d => Q (ix4 b h q d)) (fun k' d => K (ix4 b h k' d)) (fun k' => M (ix4 b h q k')) k

/-- The attention weights as one array. -/
def attnArr (Q K : A4.Idx → EReal) (M : P4.Idx → BitVec 1) : P4.Idx → EReal :=
  fun i => attn Q K M (i 0) (i 1) (i 2) (i 3)

/-- The context: the weights times the value rows, summed over the keys. -/
def ctxArr (Q K V : A4.Idx → EReal) (M : P4.Idx → BitVec 1) : A4.Idx → EReal :=
  fun i => ∑ k : Fin 1024, attn Q K M (i 0) (i 1) (i 2) k * V (ix4 (i 0) (i 1) k (i 3))

/-- The column sums: the weights summed over the 1024 queries. -/
def colArr (Q K : A4.Idx → EReal) (M : P4.Idx → BitVec 1) : C3.Idx → EReal :=
  fun i => ∑ q : Fin 1024, attn Q K M (i 0) (i 1) q (i 2)

/-- The kernel receives the mask with each bit widened to a 32-bit word, and reads the bit back as "the word is not zero". -/
abbrev maskBit (w : BitVec 32) : BitVec 1 := IntOp.cmpi .ne w 0#32

/-- Widening a bit to 32 bits and asking whether the word is not zero gives the bit back. -/
theorem maskBit_setWidth (b : BitVec 1) : maskBit (b.setWidth 32) = b := by
  by_cases hb : b = 1#1
  · subst hb; decide
  · have h0 := eq_zero_of_ne_one hb
    subst h0; decide

/-- −∞ is neutral for the maximum of extended reals. -/
theorem negInf_max (y : EReal) : max (Ideal.ofBits .f32 0xFF800000#32) y = y := by
  simp [Ideal.ofBits, Ideal.ieee]

/-- A row maximum taken from −∞ is not changed by one more maximum against −∞. -/
theorem negInf_max_rowMax (s : Fin 1024 → EReal) : max (Ideal.ofBits .f32 0xFF800000#32) (rowMax s) = rowMax s :=
  negInf_max _

end Cert.Softmax

end
-- ==== Proof.RefSpec.lean ====
/-
  The reference program computes the specification's three arrays.

  Read one element at a time, the reference's stages are: the inner product of a query row with a key row times 1/8,
  replaced by −10⁹ where the mask bit is set (the score s k of the row (b, h, q)); the row's maximum, folded from −∞ over
  the 1024 keys and then once more compared with −∞, which changes nothing; exp (s k − max s); the row's sum of these,
  taken from 0; and their quotient, which is the softmax of the row at k. This is the attention weight of the
  specification. The context is the sum over the keys of the weights times the value rows, and the column sums are the
  sums of the weights over the 1024 queries, each taken from 0: the specification's other two arrays.

  Every step is a reading of one stage at an index written by its coordinates; no property of the extended reals is
  used beyond max (−∞) y = y and 0 + y = y.
-/
import proofs.«112515_j72722386256060_1_alg».proof.Proof.Spec
import proofs.«112515_j72722386256060_1_alg».proof.Proof.Gen.ReferenceIdeal.Read

noncomputable section
namespace Cert.RefSpec
open Cert.ReferenceIdeal Cert.ReferenceIdeal.Gen Cert.ReferenceIdeal.Read Idealize.ShloMosaic Idealize.ShloMosaic.ValueIdx

/-- The row of masked, scaled scores of batch b, head h, query q. -/
private abbrev sRow (Q K : (⟨S8x16x1024x64, .f32⟩ : BufTy).Contents (Elt Ideal)) (M : (⟨S8x16x1024x1024, .i1⟩ : BufTy).Contents (Elt Ideal))
    (b : Fin 8) (h : Fin 16) (q : Fin 1024) : Fin 1024 → EReal :=
  Cert.Softmax.scoreRow (fun d => Q (ix4 b h q d)) (fun k' d => K (ix4 b h k' d)) (fun k' => M (ix4 b h q k'))

/-- The reference's masked, scaled score at (b, h, q, k) is the row's score at k. -/
private theorem v3_at (Q K : (⟨S8x16x1024x64, .f32⟩ : BufTy).Contents (Elt Ideal)) (M : (⟨S8x16x1024x1024, .i1⟩ : BufTy).Contents (Elt Ideal))
    (b : Fin 8) (h : Fin 16) (q k : Fin 1024) :
    val_main_v3 (F := Ideal) Q K M (ix4 b h q k) = sRow Q K M b h q k := by
  rw [val_main_v3_apply, val_main_call0_v1_apply, val_main_call0_v0_apply, val_main_cst_0_apply, val_main_v2_apply,
    val_main_v0_apply, val_main_v1_apply, val_main_cst_apply]
  have hl : ∀ d : Fin 64, lidx_main_v0 (ix4 b h q k) d = ix4 b h q d := fun d => funext fun a => Fin.ext (by
    match a with | ⟨0, _⟩ => rfl | ⟨1, _⟩ => rfl | ⟨2, _⟩ => rfl | ⟨3, _⟩ => rfl)
  have hr : ∀ d : Fin 64, ridx_main_v0 (ix4 b h q k) d = ix4 b h k d := fun d => funext fun a => Fin.ext (by
    match a with | ⟨0, _⟩ => rfl | ⟨1, _⟩ => rfl | ⟨2, _⟩ => rfl | ⟨3, _⟩ => rfl)
  simp only [hl, hr]
  rfl

/-- The reduced index (b, h, q) with key coordinate k put back on the last axis is (b, h, q, k). -/
private theorem lift_ix4 (hR : S8x16x1024x1024.Reduces [3] S8x16x1024) (b : Fin 8) (h : Fin 16) (q : Fin 1024)
    (k : Fin (S8x16x1024x1024.size 3)) : hR.lift (ix3 b h q) k = ix4 b h q (⟨k.val, k.isLt⟩ : Fin 1024) := by
  funext c; apply Fin.ext
  match c with | ⟨0, _⟩ => rfl | ⟨1, _⟩ => rfl | ⟨2, _⟩ => rfl | ⟨3, _⟩ => rfl

/-- The reference's maximum over the keys at (b, h, q), folded from −∞, is the row's maximum. -/
private theorem v4_at (Q K : (⟨S8x16x1024x64, .f32⟩ : BufTy).Contents (Elt Ideal)) (M : (⟨S8x16x1024x1024, .i1⟩ : BufTy).Contents (Elt Ideal))
    (b : Fin 8) (h : Fin 16) (q : Fin 1024) :
    val_main_v4 (F := Ideal) Q K M (ix3 b h q) = Cert.Softmax.rowMax (sRow Q K M b h q) := by
  have hR : S8x16x1024x1024.Reduces [3] S8x16x1024 := by decide
  unfold val_main_v4
  rw [Host.reduce_eq_fold_single FloatOps.maximumf _ _ reducesTo_S8x16x1024x1024_S8x16x1024_d3 hR h_S_]
  have hrow : (val_main_v3 (F := Ideal) Q K M ∘ hR.lift (ix3 b h q)) = sRow Q K M b h q := funext fun k' =>
    (congrArg (val_main_v3 (F := Ideal) Q K M) (lift_ix4 hR b h q k')).trans (v3_at Q K M b h q _)
  rw [hrow]
  rfl

/-- The maximum the reference subtracts at (b, h, q, k): the row's maximum, broadcast back over the keys. -/
private theorem v8_at (Q K : (⟨S8x16x1024x64, .f32⟩ : BufTy).Contents (Elt Ideal)) (M : (⟨S8x16x1024x1024, .i1⟩ : BufTy).Contents (Elt Ideal))
    (b : Fin 8) (h : Fin 16) (q k : Fin 1024) :
    val_main_v8 (F := Ideal) Q K M (ix4 b h q k) = Cert.Softmax.rowMax (sRow Q K M b h q) := by
  rw [val_main_v8_apply, val_main_v7_apply]
  have hi : idx_main_v7 (idx_main_v8 (ix4 b h q k)) = ix3 b h q := funext fun a => Fin.ext (by
    match a with | ⟨0, _⟩ => rfl | ⟨1, _⟩ => rfl | ⟨2, _⟩ => rfl)
  rw [hi, val_main_v6_apply, val_main_v5_apply, val_main_cst_2_apply, v4_at]
  exact Cert.Softmax.negInf_max_rowMax _

/-- The exponentials: exp (s k − max s). -/
private theorem v10_at (Q K : (⟨S8x16x1024x64, .f32⟩ : BufTy).Contents (Elt Ideal)) (M : (⟨S8x16x1024x1024, .i1⟩ : BufTy).Contents (Elt Ideal))
    (b : Fin 8) (h : Fin 16) (q k : Fin 1024) :
    val_main_v10 (F := Ideal) Q K M (ix4 b h q k)
      = Ideal.exp (sRow Q K M b h q k - Cert.Softmax.rowMax (sRow Q K M b h q)) := by
  rw [val_main_v10_apply, val_main_v9_apply, v3_at, v8_at]
  rfl

/-- The denominators: the row's sum of exponentials, broadcast back over the keys. -/
private theorem v13_at (Q K : (⟨S8x16x1024x64, .f32⟩ : BufTy).Contents (Elt Ideal)) (M : (⟨S8x16x1024x1024, .i1⟩ : BufTy).Contents (Elt Ideal))
    (b : Fin 8) (h : Fin 16) (q k : Fin 1024) :
    val_main_v13 (F := Ideal) Q K M (ix4 b h q k)
      = ∑ k' : Fin 1024, Ideal.exp (sRow Q K M b h q k' - Cert.Softmax.rowMax (sRow Q K M b h q)) := by
  rw [val_main_v13_apply, val_main_v12_apply]
  have hi : idx_main_v12 (idx_main_v13 (ix4 b h q k)) = ix3 b h q := funext fun a => Fin.ext (by
    match a with | ⟨0, _⟩ => rfl | ⟨1, _⟩ => rfl | ⟨2, _⟩ => rfl)
  rw [hi, val_main_v11_apply, val_main_cst_3_apply]
  have hk : ∀ k' : Fin 1024, idx_main_v11 (ix3 b h q) k' = ix4 b h q k' := fun k' => funext fun a => Fin.ext (by
    match a with | ⟨0, _⟩ => rfl | ⟨1, _⟩ => rfl | ⟨2, _⟩ => rfl | ⟨3, _⟩ => rfl)
  simp only [hk, v10_at]
  rw [Ideal.ofBits_def, Ideal.ofBits_zero_f32, zero_add]

theorem ref_attn (Q K : (⟨S8x16x1024x64, .f32⟩ : BufTy).Contents (Elt Ideal)) (M : (⟨S8x16x1024x1024, .i1⟩ : BufTy).Contents (Elt Ideal)) :
    val_main_v14 (F := Ideal) Q K M = Cert.Softmax.attnArr Q K M := by
  funext i
  obtain ⟨b, h, q, k, rfl⟩ : ∃ b h q k, i = ix4 b h q k := ⟨i 0, i 1, i 2, i 3, eq_ix4 i⟩
  rw [val_main_v14_apply, v10_at, v13_at]
  rfl

theorem ref_ctx (Q K V : (⟨S8x16x1024x64, .f32⟩ : BufTy).Contents (Elt Ideal)) (M : (⟨S8x16x1024x1024, .i1⟩ : BufTy).Contents (Elt Ideal)) :
    val_main_v16 (F := Ideal) Q K V M = Cert.Softmax.ctxArr Q K V M := by
  funext i
  obtain ⟨b, h, q, d, rfl⟩ : ∃ b h q d, i = ix4 b h q d := ⟨i 0, i 1, i 2, i 3, eq_ix4 i⟩
  rw [val_main_v16_apply, ref_attn]
  have hl : ∀ k : Fin 1024, lidx_main_v16 (ix4 b h q d) k = ix4 b h q k := fun k => funext fun a => Fin.ext (by
    match a with | ⟨0, _⟩ => rfl | ⟨1, _⟩ => rfl | ⟨2, _⟩ => rfl | ⟨3, _⟩ => rfl)
  have hr : ∀ k : Fin 1024, ridx_main_v16 (ix4 b h q d) k = ix4 b h k d := fun k => funext fun a => Fin.ext (by
    match a with | ⟨0, _⟩ => rfl | ⟨1, _⟩ => rfl | ⟨2, _⟩ => rfl | ⟨3, _⟩ => rfl)
  simp only [hl, hr]
  rfl

theorem ref_col (Q K : (⟨S8x16x1024x64, .f32⟩ : BufTy).Contents (Elt Ideal)) (M : (⟨S8x16x1024x1024, .i1⟩ : BufTy).Contents (Elt Ideal)) :
    val_main_v15 (F := Ideal) Q K M = Cert.Softmax.colArr Q K M := by
  funext i
  obtain ⟨b, h, k, rfl⟩ : ∃ b h k, i = ix3 b h k := ⟨i 0, i 1, i 2, eq_ix3 i⟩
  rw [val_main_v15_apply, val_main_cst_4_apply, ref_attn]
  have hk : ∀ q : Fin 1024, idx_main_v15 (ix3 b h k) q = ix4 b h q k := fun q => funext fun a => Fin.ext (by
    match a with | ⟨0, _⟩ => rfl | ⟨1, _⟩ => rfl | ⟨2, _⟩ => rfl | ⟨3, _⟩ => rfl)
  simp only [hk]
  rw [Ideal.ofBits_def, Ideal.ofBits_zero_f32, zero_add]
  rfl

end Cert.RefSpec
end
-- ==== Proof.Pieces.lean ====
/-
  What the kernel body leaves in its three output blocks, as values of the blocks it loaded.

  At every grid point the body stores the context block once (the weights times the value block), the block of
  attention weights once, and the block of column sums: at the first query tile of a batch element it first stores
  zeros, reads them back and adds the tile's column sums; at the other tiles it adds them to what the tile before
  left. Each store covers its whole block, so what a block holds afterwards is the last store's value; the loads
  read whole buffers, so they return the blocks themselves.
-/
import proofs.«112515_j72722386256060_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- First tile of a batch element: the context block is the weights times the value block. -/
theorem out_A_4 (c : Dev nD) (i : grid0.Coords) (arg2 : Memref sig .tc .vmem S1x16x128x64 .f32) (harg2 : arg2.IsWhole) (arg3 : Memref sig .tc .vmem S1x16x1024x64 .f32) (harg3 : arg3.IsWhole) (arg4 : Memref sig .tc .vmem S1x16x1024x64 .f32) (harg4 : arg4.IsWhole) (arg5 : Memref sig .tc .vmem S1x16x128x1024 .i32) (harg5 : arg5.IsWhole) (arg6 : Memref sig .tc .vmem S1x16x128x64 .f32) (harg6 : arg6.IsWhole) (arg7 : Memref sig .tc .vmem S1x16x128x1024 .f32) (harg7 : arg7.IsWhole) (arg8 : Memref sig .tc .vmem S1x16x1024 .f32) (harg8 : arg8.IsWhole) (hc0 : cond0_0 i)
    (x0 : Vec F S1x16x128x64 .f32) (x1 : Vec F S1x16x1024x64 .f32) (x2 : Vec F S1x16x1024x64 .f32) (x3 : Vec F S1x16x128x1024 .i32) :
    out0_A_4 c i arg2 harg2 arg3 harg3 arg4 harg4 arg5 harg5 arg6 harg6 arg7 harg7 arg8 harg8 hc0 x0 x1 x2 x3 = k0_pay1 (k0_pay6 x0 x1 x2 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz4]
  simp only [View.readAt_eq_ld, harg2.read_unread, harg3.read_unread, harg4.read_unread, harg5.read_unread, harg8.read_unread,
    View.ld_unit_zero (S := S1x16x128x64) hz4, View.ld_unit_zero (S := S1x16x1024x64) hz4,
    View.ld_unit_zero (S := S1x16x128x1024) hz4, View.ld_unit_zero (S := S1x16x1024) hz3]

/-- First tile: the block of attention weights. -/
theorem out_A_5 (c : Dev nD) (i : grid0.Coords) (arg2 : Memref sig .tc .vmem S1x16x128x64 .f32) (harg2 : arg2.IsWhole) (arg3 : Memref sig .tc .vmem S1x16x1024x64 .f32) (harg3 : arg3.IsWhole) (arg4 : Memref sig .tc .vmem S1x16x1024x64 .f32) (harg4 : arg4.IsWhole) (arg5 : Memref sig .tc .vmem S1x16x128x1024 .i32) (harg5 : arg5.IsWhole) (arg6 : Memref sig .tc .vmem S1x16x128x64 .f32) (harg6 : arg6.IsWhole) (arg7 : Memref sig .tc .vmem S1x16x128x1024 .f32) (harg7 : arg7.IsWhole) (arg8 : Memref sig .tc .vmem S1x16x1024 .f32) (harg8 : arg8.IsWhole) (hc0 : cond0_0 i)
    (x0 : Vec F S1x16x128x64 .f32) (x1 : Vec F S1x16x1024x64 .f32) (x2 : Vec F S1x16x1024x64 .f32) (x3 : Vec F S1x16x128x1024 .i32) :
    out0_A_5 c i arg2 harg2 arg3 harg3 arg4 harg4 arg5 harg5 arg6 harg6 arg7 harg7 arg8 harg8 hc0 x0 x1 x2 x3 = k0_pay5 x0 x1 x3 := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_unit_zero hz4]
  simp only [View.readAt_eq_ld, harg2.read_unread, harg3.read_unread, harg4.read_unread, harg5.read_unread, harg8.read_unread,
    View.ld_unit_zero (S := S1x16x128x64) hz4, View.ld_unit_zero (S := S1x16x1024x64) hz4,
    View.ld_unit_zero (S := S1x16x128x1024) hz4, View.ld_unit_zero (S := S1x16x1024) hz3]

/-- First tile: the column sums start from the zeros just stored. -/
theorem out_A_6 (c : Dev nD) (i : grid0.Coords) (arg2 : Memref sig .tc .vmem S1x16x128x64 .f32) (harg2 : arg2.IsWhole) (arg3 : Memref sig .tc .vmem S1x16x1024x64 .f32) (harg3 : arg3.IsWhole) (arg4 : Memref sig .tc .vmem S1x16x1024x64 .f32) (harg4 : arg4.IsWhole) (arg5 : Memref sig .tc .vmem S1x16x128x1024 .i32) (harg5 : arg5.IsWhole) (arg6 : Memref sig .tc .vmem S1x16x128x64 .f32) (harg6 : arg6.IsWhole) (arg7 : Memref sig .tc .vmem S1x16x128x1024 .f32) (harg7 : arg7.IsWhole) (arg8 : Memref sig .tc .vmem S1x16x1024 .f32) (harg8 : arg8.IsWhole) (hc0 : cond0_0 i)
    (x0 : Vec F S1x16x128x64 .f32) (x1 : Vec F S1x16x1024x64 .f32) (x2 : Vec F S1x16x1024x64 .f32) (x3 : Vec F S1x16x128x1024 .i32) :
    out0_A_6 c i arg2 harg2 arg3 harg3 arg4 harg4 arg5 harg5 arg6 harg6 arg7 harg7 arg8 harg8 hc0 x0 x1 x2 x3 = k0_pay3 (k0_pay4 x0 x1 x3) (k0_pay2 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x16x1024) hz3, View.readCov_unit_zero (S := S1x16x1024) _ hz3]
  simp only [View.readAt_eq_ld, harg2.read_unread, harg3.read_unread, harg4.read_unread, harg5.read_unread, harg8.read_unread,
    View.ld_unit_zero (S := S1x16x128x64) hz4, View.ld_unit_zero (S := S1x16x1024x64) hz4,
    View.ld_unit_zero (S := S1x16x128x1024) hz4, View.ld_unit_zero (S := S1x16x1024) hz3]

/-- Later tiles: the context block, as at the first. -/
theorem out_B_4 (c : Dev nD) (i : grid0.Coords) (arg2 : Memref sig .tc .vmem S1x16x128x64 .f32) (harg2 : arg2.IsWhole) (arg3 : Memref sig .tc .vmem S1x16x1024x64 .f32) (harg3 : arg3.IsWhole) (arg4 : Memref sig .tc .vmem S1x16x1024x64 .f32) (harg4 : arg4.IsWhole) (arg5 : Memref sig .tc .vmem S1x16x128x1024 .i32) (harg5 : arg5.IsWhole) (arg6 : Memref sig .tc .vmem S1x16x128x64 .f32) (harg6 : arg6.IsWhole) (arg7 : Memref sig .tc .vmem S1x16x128x1024 .f32) (harg7 : arg7.IsWhole) (arg8 : Memref sig .tc .vmem S1x16x1024 .f32) (harg8 : arg8.IsWhole) (hc0 : ¬cond0_0 i)
    (x0 : Vec F S1x16x128x64 .f32) (x1 : Vec F S1x16x1024x64 .f32) (x2 : Vec F S1x16x1024x64 .f32) (x3 : Vec F S1x16x128x1024 .i32) (xo6 : Vec F S1x16x1024 .f32) :
    out0_B_4 c i arg2 harg2 arg3 harg3 arg4 harg4 arg5 harg5 arg6 harg6 arg7 harg7 arg8 harg8 hc0 x0 x1 x2 x3 xo6 = k0_pay1 (k0_pay6 x0 x1 x2 x3) := by
  unfold out0_B_4
  rw [View.read_writes_eq_canon _ _ _ (cover0_B_4 c i arg2 harg2 arg3 harg3 arg4 harg4 arg5 harg5 arg6 harg6 arg7 harg7 arg8 harg8 hc0 x0 x1 x2 x3 xo6)]
  unfold kernelRun0_B
  dsimp only
  sl_unfold_words
  rw [View.canon_unit_zero hz4]
  simp only [View.readAt_eq_ld, harg2.read_unread, harg3.read_unread, harg4.read_unread, harg5.read_unread, harg8.read_unread,
    View.ld_unit_zero (S := S1x16x128x64) hz4, View.ld_unit_zero (S := S1x16x1024x64) hz4,
    View.ld_unit_zero (S := S1x16x128x1024) hz4, View.ld_unit_zero (S := S1x16x1024) hz3]

/-- Later tiles: the block of attention weights, as at the first. -/
theorem out_B_5 (c : Dev nD) (i : grid0.Coords) (arg2 : Memref sig .tc .vmem S1x16x128x64 .f32) (harg2 : arg2.IsWhole) (arg3 : Memref sig .tc .vmem S1x16x1024x64 .f32) (harg3 : arg3.IsWhole) (arg4 : Memref sig .tc .vmem S1x16x1024x64 .f32) (harg4 : arg4.IsWhole) (arg5 : Memref sig .tc .vmem S1x16x128x1024 .i32) (harg5 : arg5.IsWhole) (arg6 : Memref sig .tc .vmem S1x16x128x64 .f32) (harg6 : arg6.IsWhole) (arg7 : Memref sig .tc .vmem S1x16x128x1024 .f32) (harg7 : arg7.IsWhole) (arg8 : Memref sig .tc .vmem S1x16x1024 .f32) (harg8 : arg8.IsWhole) (hc0 : ¬cond0_0 i)
    (x0 : Vec F S1x16x128x64 .f32) (x1 : Vec F S1x16x1024x64 .f32) (x2 : Vec F S1x16x1024x64 .f32) (x3 : Vec F S1x16x128x1024 .i32) (xo6 : Vec F S1x16x1024 .f32) :
    out0_B_5 c i arg2 harg2 arg3 harg3 arg4 harg4 arg5 harg5 arg6 harg6 arg7 harg7 arg8 harg8 hc0 x0 x1 x2 x3 xo6 = k0_pay5 x0 x1 x3 := by
  unfold out0_B_5
  rw [View.read_writes_eq_canon _ _ _ (cover0_B_5 c i arg2 harg2 arg3 harg3 arg4 harg4 arg5 harg5 arg6 harg6 arg7 harg7 arg8 harg8 hc0 x0 x1 x2 x3 xo6)]
  unfold kernelRun0_B
  dsimp only
  sl_unfold_words
  rw [View.canon_unit_zero hz4]
  simp only [View.readAt_eq_ld, harg2.read_unread, harg3.read_unread, harg4.read_unread, harg5.read_unread, harg8.read_unread,
    View.ld_unit_zero (S := S1x16x128x64) hz4, View.ld_unit_zero (S := S1x16x1024x64) hz4,
    View.ld_unit_zero (S := S1x16x128x1024) hz4, View.ld_unit_zero (S := S1x16x1024) hz3]

/-- Later tiles: the tile's column sums are added to what the tile before left (`xo6`). -/
theorem out_B_6 (c : Dev nD) (i : grid0.Coords) (arg2 : Memref sig .tc .vmem S1x16x128x64 .f32) (harg2 : arg2.IsWhole) (arg3 : Memref sig .tc .vmem S1x16x1024x64 .f32) (harg3 : arg3.IsWhole) (arg4 : Memref sig .tc .vmem S1x16x1024x64 .f32) (harg4 : arg4.IsWhole) (arg5 : Memref sig .tc .vmem S1x16x128x1024 .i32) (harg5 : arg5.IsWhole) (arg6 : Memref sig .tc .vmem S1x16x128x64 .f32) (harg6 : arg6.IsWhole) (arg7 : Memref sig .tc .vmem S1x16x128x1024 .f32) (harg7 : arg7.IsWhole) (arg8 : Memref sig .tc .vmem S1x16x1024 .f32) (harg8 : arg8.IsWhole) (hc0 : ¬cond0_0 i)
    (x0 : Vec F S1x16x128x64 .f32) (x1 : Vec F S1x16x1024x64 .f32) (x2 : Vec F S1x16x1024x64 .f32) (x3 : Vec F S1x16x128x1024 .i32) (xo6 : Vec F S1x16x1024 .f32) :
    out0_B_6 c i arg2 harg2 arg3 harg3 arg4 harg4 arg5 harg5 arg6 harg6 arg7 harg7 arg8 harg8 hc0 x0 x1 x2 x3 xo6 = k0_pay3 (k0_pay4 x0 x1 x3) xo6 := by
  unfold out0_B_6
  rw [View.read_writes_eq_canon _ _ _ (cover0_B_6 c i arg2 harg2 arg3 harg3 arg4 harg4 arg5 harg5 arg6 harg6 arg7 harg7 arg8 harg8 hc0 x0 x1 x2 x3 xo6)]
  unfold kernelRun0_B
  dsimp only
  sl_unfold_words
  rw [View.canon_unit_zero hz3]
  simp only [View.readAt_eq_ld, harg2.read_unread, harg3.read_unread, harg4.read_unread, harg5.read_unread, harg8.read_unread,
    View.ld_unit_zero (S := S1x16x128x64) hz4, View.ld_unit_zero (S := S1x16x1024x64) hz4,
    View.ld_unit_zero (S := S1x16x128x1024) hz4, View.ld_unit_zero (S := S1x16x1024) hz3]

end Cert.KernelIdeal.Pieces

end
-- ==== Proof.Blocks.lean ====
/-
  The blocks the kernel loads, read at an entry of the argument arrays.

  Grid point `t` (of 64) works on batch element `t / 8` and query tile `t % 8`. Its query block and its block of
  mask words are rows `128 * (t % 8) + q`, `q < 128`, of that batch element, all 16 heads; its key and value blocks
  are all 1024 rows of that batch element. The mask reaches the kernel widened to 32-bit words.
-/
import proofs.«112515_j72722386256060_1_alg».proof.Proof.Gen.KernelIdeal.Frame
import proofs.«112515_j72722386256060_1_alg».proof.Proof.Spec
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

theorem lt64 (t : Fin cfg0.N) : t.val < 64 := lt_of_lt_of_eq t.isLt (show cfg0.N = 64 from N_0)

/-- The batch element of grid point `t`. -/
def bOf (t : Fin cfg0.N) : Fin 8 := ⟨t.val / 8, by have := lt64 t; omega⟩
/-- The query tile of grid point `t`. -/
def tileOf (t : Fin cfg0.N) : Fin 8 := ⟨t.val % 8, by omega⟩
/-- Row `q` of query tile `j` is row `128 * j + q` of the 1024. -/
def rowOf (j : Fin 8) (q : Fin 128) : Fin 1024 := ⟨128 * j.val + q.val, by have := j.isLt; have := q.isLt; omega⟩

/-! ## Where each window's block sits: the index maps, decided over the 64 grid points -/

theorem idx_facts0 : ∀ t : Fin cfg0.N, win0_0.index t 0 = t.val / 8 ∧ win0_0.index t 1 = 0 ∧ win0_0.index t 2 = t.val % 8 ∧ win0_0.index t 3 = 0 :=
  (by decide +kernel : ∀ t : Fin grid0.N, win0_0.index t 0 = t.val / 8 ∧ win0_0.index t 1 = 0 ∧ win0_0.index t 2 = t.val % 8 ∧ win0_0.index t 3 = 0)

theorem idx_facts1 : ∀ t : Fin cfg0.N, win0_1.index t 0 = t.val / 8 ∧ win0_1.index t 1 = 0 ∧ win0_1.index t 2 = 0 ∧ win0_1.index t 3 = 0 :=
  (by decide +kernel : ∀ t : Fin grid0.N, win0_1.index t 0 = t.val / 8 ∧ win0_1.index t 1 = 0 ∧ win0_1.index t 2 = 0 ∧ win0_1.index t 3 = 0)

theorem idx_facts2 : ∀ t : Fin cfg0.N, win0_2.index t 0 = t.val / 8 ∧ win0_2.index t 1 = 0 ∧ win0_2.index t 2 = 0 ∧ win0_2.index t 3 = 0 :=
  (by decide +kernel : ∀ t : Fin grid0.N, win0_2.index t 0 = t.val / 8 ∧ win0_2.index t 1 = 0 ∧ win0_2.index t 2 = 0 ∧ win0_2.index t 3 = 0)

theorem idx_facts3 : ∀ t : Fin cfg0.N, win0_3.index t 0 = t.val / 8 ∧ win0_3.index t 1 = 0 ∧ win0_3.index t 2 = t.val % 8 ∧ win0_3.index t 3 = 0 :=
  (by decide +kernel : ∀ t : Fin grid0.N, win0_3.index t 0 = t.val / 8 ∧ win0_3.index t 1 = 0 ∧ win0_3.index t 2 = t.val % 8 ∧ win0_3.index t 3 = 0)

/-! ## The input blocks read at an entry -/

/-- The query block at point `t`: rows `128 * tile … + 127` of batch element `t / 8`, all heads. -/
theorem iblk0_apply (c : Dev nD) (t : Fin cfg0.N) (h : Fin 16) (q : Fin 128) (d : Fin 64) :
    (iblk m c 0 t : Vec F S1x16x128x64 .f32) (ix4 0 h q d)
      = (m ((c : Thread nD τ).loc main_arg0) : S8x16x1024x64.Idx → Elt F .f32) (ix4 (bOf t) h (rowOf (tileOf t) q) d) := by
  unfold iblk
  rw [View.read_apply]
  show V m c main_arg0 _ = _
  rw [V_main_arg0]
  congr 1
  funext a
  apply Fin.ext
  have hi := idx_facts0 t
  match a with
  | ⟨0, _⟩ => show win0_0.index t 0 * 1 + 1 * 0 = t.val / 8; rw [hi.1]; omega
  | ⟨1, _⟩ => show win0_0.index t 1 * 16 + 1 * h.val = h.val; rw [hi.2.1]; omega
  | ⟨2, _⟩ => show win0_0.index t 2 * 128 + 1 * q.val = 128 * (t.val % 8) + q.val; rw [hi.2.2.1]; omega
  | ⟨3, _⟩ => show win0_0.index t 3 * 64 + 1 * d.val = d.val; rw [hi.2.2.2]; omega

/-- The key block at point `t`: all 1024 rows of batch element `t / 8`. -/
theorem iblk1_apply (c : Dev nD) (t : Fin cfg0.N) (h : Fin 16) (k : Fin 1024) (d : Fin 64) :
    (iblk m c 1 t : Vec F S1x16x1024x64 .f32) (ix4 0 h k d)
      = (m ((c : Thread nD τ).loc main_arg1) : S8x16x1024x64.Idx → Elt F .f32) (ix4 (bOf t) h k d) := by
  unfold iblk
  rw [View.read_apply]
  show V m c main_arg1 _ = _
  rw [V_main_arg1]
  congr 1
  funext a
  apply Fin.ext
  have hi := idx_facts1 t
  match a with
  | ⟨0, _⟩ => show win0_1.index t 0 * 1 + 1 * 0 = t.val / 8; rw [hi.1]; omega
  | ⟨1, _⟩ => show win0_1.index t 1 * 16 + 1 * h.val = h.val; rw [hi.2.1]; omega
  | ⟨2, _⟩ => show win0_1.index t 2 * 1024 + 1 * k.val = k.val; rw [hi.2.2.1]; omega
  | ⟨3, _⟩ => show win0_1.index t 3 * 64 + 1 * d.val = d.val; rw [hi.2.2.2]; omega

/-- The value block at point `t`: all 1024 rows of batch element `t / 8`. -/
theorem iblk2_apply (c : Dev nD) (t : Fin cfg0.N) (h : Fin 16) (k : Fin 1024) (d : Fin 64) :
    (iblk m c 2 t : Vec F S1x16x1024x64 .f32) (ix4 0 h k d)
      = (m ((c : Thread nD τ).loc main_arg2) : S8x16x1024x64.Idx → Elt F .f32) (ix4 (bOf t) h k d) := by
  unfold iblk
  rw [View.read_apply]
  show V m c main_arg2 _ = _
  rw [V_main_arg2]
  congr 1
  funext a
  apply Fin.ext
  have hi := idx_facts2 t
  match a with
  | ⟨0, _⟩ => show win0_2.index t 0 * 1 + 1 * 0 = t.val / 8; rw [hi.1]; omega
  | ⟨1, _⟩ => show win0_2.index t 1 * 16 + 1 * h.val = h.val; rw [hi.2.1]; omega
  | ⟨2, _⟩ => show win0_2.index t 2 * 1024 + 1 * k.val = k.val; rw [hi.2.2.1]; omega
  | ⟨3, _⟩ => show win0_2.index t 3 * 64 + 1 * d.val = d.val; rw [hi.2.2.2]; omega

/-- Before the kernel starts the mask is widened, bit by bit, to 32-bit words. -/
theorem V_main_v0 (c : Dev nD) :
    (V m c main_v0 : S8x16x1024x1024.Idx → BitVec 32)
      = fun j => ((m ((c : Thread nD τ).loc main_arg3) : S8x16x1024x1024.Idx → BitVec 1) j).setWidth 32 := by
  dsimp only [V, hostOps0]
  after_results
  rfl

/-- The block of mask words at point `t`: rows `128 * tile … + 127` of batch element `t / 8`, each word the widened mask bit. -/
theorem iblk3_apply (c : Dev nD) (t : Fin cfg0.N) (h : Fin 16) (q : Fin 128) (k : Fin 1024) :
    (iblk m c 3 t : Vec F S1x16x128x1024 .i32) (ix4 0 h q k)
      = ((m ((c : Thread nD τ).loc main_arg3) : S8x16x1024x1024.Idx → BitVec 1) (ix4 (bOf t) h (rowOf (tileOf t) q) k)).setWidth 32 := by
  unfold iblk
  rw [View.read_apply]
  show (V m c main_v0 : S8x16x1024x1024.Idx → BitVec 32) _ = _
  rw [V_main_v0]
  show ((m ((c : Thread nD τ).loc main_arg3) : S8x16x1024x1024.Idx → BitVec 1) _).setWidth 32 = _
  congr 2
  funext a
  apply Fin.ext
  have hi := idx_facts3 t
  match a with
  | ⟨0, _⟩ => show win0_3.index t 0 * 1 + 1 * 0 = t.val / 8; rw [hi.1]; omega
  | ⟨1, _⟩ => show win0_3.index t 1 * 16 + 1 * h.val = h.val; rw [hi.2.1]; omega
  | ⟨2, _⟩ => show win0_3.index t 2 * 128 + 1 * q.val = 128 * (t.val % 8) + q.val; rw [hi.2.2.1]; omega
  | ⟨3, _⟩ => show win0_3.index t 3 * 1024 + 1 * k.val = k.val; rw [hi.2.2.2]; omega

end Cert.KernelIdeal.Blocks

end
-- ==== Proof.PayAttn.lean ====
/-
  The attention weights that one grid step computes, read at one entry.

  The step holds a block of 128 query rows, all 1024 key rows and a block of mask words, for 16 heads. Its arithmetic is:
  the inner products of query rows with key rows (a batched product contracting the 64 features), times 1/8; the fill
  value −10⁹ wherever the mask word is not zero; then along each row of 1024 scores the maximum taken from −∞, the
  exponentials of the differences to it, their sum, and the quotients. This module reads that term at head `h`, query
  `q`, key `k` and finds the row softmax of the specification: the weight of key `k` for the query row `x0 (0, h, q, ·)`,
  the key rows `x1 (0, h, ·, ·)` and the mask bits "the word `x3 (0, h, q, ·)` is not zero".

  The steps: a unit leading axis dropped by a shape cast reads the operand at coordinate 0 there; a column kept by a
  reduction ([16,128] viewed [16,128,1] and repeated along the last axis) reads the reduced value of its row; a maximum
  or a sum over the last axis is the fold or the sum over that axis's 1024 coordinates; the batched product into a zero
  accumulator is the sum over the 64 features of the products of the operands' entries.
-/
import proofs.«112515_j72722386256060_1_alg».proof.Proof.Spec
import proofs.«112515_j72722386256060_1_alg».proof.Proof.Gen.KernelIdeal.Skeleton
import Idealize.ShloMosaic.Lib.ValueLayout
import Idealize.ShloMosaic.PureOps.Ideal.Laws

noncomputable section
namespace Cert.PaySpec
open Cert.KernelIdeal Cert.KernelIdeal.Gen Idealize.ShloMosaic Idealize.ShloMosaic.ValueIdx

/-! ## The kept column of a row reduction -/

/-- A [16,128] array viewed as [16,128,1] and repeated along the last axis reads, at (h, q, k), its entry at (h, q). -/
private theorem col_apply {α : Type} (v : S16x128.Idx → α) (h : Fin 16) (q : Fin 128) (k : Fin 1024) :
    broadcastTo S16x128x1024 (shapeCast S16x128x1 v shapeCasts_S16x128_S16x128x1) broadcasts_S16x128x1_S16x128x1024 (ix3 h q k)
      = v (ix2 h q) := by
  refine (broadcastTo_apply _ broadcasts_S16x128x1_S16x128x1024 (ix3 h q k) (ix3 h q (0 : Fin 1)) fun a => ?_).trans ?_
  · match a with
    | ⟨0, _⟩ => rfl
    | ⟨1, _⟩ => rfl
    | ⟨2, _⟩ => rfl
  · refine shapeCast_apply v shapeCasts_S16x128_S16x128x1 (ix3 h q (0 : Fin 1)) (ix2 h q) ?_
    rw [Shape.rowMajor_val_two, Shape.rowMajor_val_three]
    show h.val * 128 + q.val = (h.val * 128 + q.val) * 1 + 0
    omega

/-- The reduced index (h, q) with the coordinate k' put back on the last axis is (h, q, k'). -/
private theorem lift_ix (h : Fin 16) (q : Fin 128) (k' : Fin 1024) :
    reduces_S16x128x1024_S16x128.lift (ix2 h q) k' = ix3 h q k' := by
  funext a
  refine Fin.ext ?_
  match a with
  | ⟨0, _⟩ => rfl
  | ⟨1, _⟩ => rfl
  | ⟨2, _⟩ => rfl

/-! ## The two reductions along a row -/

/-- The maximum over the last axis, taken from −∞, read at (h, q): the row's maximum as the specification writes it. -/
private theorem rowMax_apply (s : FVec Ideal S16x128x1024 .f32) (h : Fin 16) (q : Fin 128) :
    multiReduction (F := Ideal) .maximumf [2] S16x128 s 0xFF800000#32 reduces_S16x128x1024_S16x128 (.inl rfl) rfl (ix2 h q)
      = Cert.Softmax.rowMax (fun k' => s (ix3 h q k')) := by
  refine (Ideal.multiReduction_maximumf_single s 0xFF800000#32 reduces_S16x128x1024_S16x128 (.inl rfl) rfl (ix2 h q)).trans ?_
  unfold Cert.Softmax.rowMax
  refine congrArg (fun f : Fin 1024 → EReal => (Finset.univ : Finset (Fin 1024)).fold max (Ideal.ofBits .f32 0xFF800000#32) f) ?_
  funext k'
  exact congrArg s (lift_ix h q k')

/-- The sum over the last axis read at (h, q): the sum of the row's 1024 entries. -/
private theorem rowSum_apply (e : FVec Ideal S16x128x1024 .f32) (h : Fin 16) (q : Fin 128) :
    multiReduction (F := Ideal) .add [2] S16x128 e 0x00000000#32 reduces_S16x128x1024_S16x128 (.inl rfl) rfl (ix2 h q)
      = ∑ k' : Fin 1024, e (ix3 h q k') := by
  refine (Ideal.multiReduction_add_single e 0x00000000#32 reduces_S16x128x1024_S16x128 (.inl rfl) rfl (ix2 h q)).trans ?_
  refine Finset.sum_congr rfl fun k' _ => ?_
  exact congrArg e (lift_ix h q k')

/-! ## The softmax of a row of scores -/

/-- The body's last nine operations as a function of the scores: the row maximum kept as a column, the exponentials of
    the differences, their row sum kept as a column, the quotients. -/
private def softTail (s : FVec Ideal S16x128x1024 .f32) : FVec Ideal S16x128x1024 .f32 :=
  divf
    (exp (subf s (broadcastTo S16x128x1024 (shapeCast S16x128x1
      (multiReduction (F := Ideal) .maximumf [2] S16x128 s 0xFF800000#32 reduces_S16x128x1024_S16x128 (.inl rfl) rfl)
      shapeCasts_S16x128_S16x128x1) broadcasts_S16x128x1_S16x128x1024)))
    (broadcastTo S16x128x1024 (shapeCast S16x128x1
      (multiReduction (F := Ideal) .add [2] S16x128
        (exp (subf s (broadcastTo S16x128x1024 (shapeCast S16x128x1
          (multiReduction (F := Ideal) .maximumf [2] S16x128 s 0xFF800000#32 reduces_S16x128x1024_S16x128 (.inl rfl) rfl)
          shapeCasts_S16x128_S16x128x1) broadcasts_S16x128x1_S16x128x1024)))
        0x00000000#32 reduces_S16x128x1024_S16x128 (.inl rfl) rfl)
      shapeCasts_S16x128_S16x128x1) broadcasts_S16x128x1_S16x128x1024)

/-- The exponential of a score's difference to its row's maximum, read at (h, q, k'). -/
private theorem expDiff_apply (s : FVec Ideal S16x128x1024 .f32) (h : Fin 16) (q : Fin 128) (k' : Fin 1024) :
    exp (subf s (broadcastTo S16x128x1024 (shapeCast S16x128x1
      (multiReduction (F := Ideal) .maximumf [2] S16x128 s 0xFF800000#32 reduces_S16x128x1024_S16x128 (.inl rfl) rfl)
      shapeCasts_S16x128_S16x128x1) broadcasts_S16x128x1_S16x128x1024)) (ix3 h q k')
      = Ideal.exp (s (ix3 h q k') - Cert.Softmax.rowMax (fun k'' => s (ix3 h q k''))) := by
  show Ideal.exp (s (ix3 h q k') - broadcastTo S16x128x1024 (shapeCast S16x128x1
      (multiReduction (F := Ideal) .maximumf [2] S16x128 s 0xFF800000#32 reduces_S16x128x1024_S16x128 (.inl rfl) rfl)
      shapeCasts_S16x128_S16x128x1) broadcasts_S16x128x1_S16x128x1024 (ix3 h q k')) = _
  rw [col_apply, rowMax_apply]

/-- That tail read at (h, q, k) is the softmax of the row of scores (h, q, ·) at k. -/
private theorem softTail_apply (s : FVec Ideal S16x128x1024 .f32) (h : Fin 16) (q : Fin 128) (k : Fin 1024) :
    softTail s (ix3 h q k) = Cert.Softmax.softRow (fun k' => s (ix3 h q k')) k := by
  unfold softTail Cert.Softmax.softRow
  rw [divf_apply, col_apply, rowSum_apply, expDiff_apply]
  refine congrArg (Ideal.div _) (Finset.sum_congr rfl fun k' _ => ?_)
  exact expDiff_apply s h q k'

/-! ## The batched product of query rows with key rows -/

/-- The left operand's index for output entry (h, q, k) and feature d is (h, q, d) … -/
private theorem lhsIdx_ix (h : Fin 16) (q : Fin 128) (k : Fin 1024) (d : Fin 64) :
    dot_S16x128x64_S16x1024x64_S16x128x1024_2_2_1_1_0_0.lhsIdx (ix3 h q k) ((contrEquiv1 dot_S16x128x64_S16x1024x64_S16x128x1024_2_2_1_1_0_0 64 rfl rfl).symm d) = ix3 h q d := by
  have hd := contrEquiv1_symm_val dot_S16x128x64_S16x1024x64_S16x128x1024_2_2_1_1_0_0 64 rfl rfl d
  funext a
  refine Fin.ext ?_
  match a with
  | ⟨0, _⟩ =>
    show (dot_S16x128x64_S16x1024x64_S16x128x1024_2_2_1_1_0_0.lhsIdx (ix3 h q k) _ 0).val = h.val
    unfold DotDims.lhsIdx
    rw [dif_pos (show (0 : Fin S16x128x64.rank) ∈ dot_S16x128x64_S16x1024x64_S16x128x1024_2_2_1_1_0_0.lhsBatch by decide)]
    rfl
  | ⟨1, _⟩ =>
    show (dot_S16x128x64_S16x1024x64_S16x128x1024_2_2_1_1_0_0.lhsIdx (ix3 h q k) _ 1).val = q.val
    unfold DotDims.lhsIdx
    rw [dif_neg (show ¬(1 : Fin S16x128x64.rank) ∈ dot_S16x128x64_S16x1024x64_S16x128x1024_2_2_1_1_0_0.lhsBatch by decide),
      dif_pos (show (1 : Fin S16x128x64.rank) ∈ dot_S16x128x64_S16x1024x64_S16x128x1024_2_2_1_1_0_0.lhsNonContracting by decide)]
    rfl
  | ⟨2, _⟩ =>
    exact (dot_S16x128x64_S16x1024x64_S16x128x1024_2_2_1_1_0_0.lhsIdx_val_of_single (cl := 2) rfl (ix3 h q k) _).trans hd

/-- … and the right operand's is (h, k, d). -/
private theorem rhsIdx_ix (h : Fin 16) (q : Fin 128) (k : Fin 1024) (d : Fin 64) :
    dot_S16x128x64_S16x1024x64_S16x128x1024_2_2_1_1_0_0.rhsIdx (ix3 h q k) ((contrEquiv1 dot_S16x128x64_S16x1024x64_S16x128x1024_2_2_1_1_0_0 64 rfl rfl).symm d) = ix3 h k d := by
  have hd := contrEquiv1_symm_val dot_S16x128x64_S16x1024x64_S16x128x1024_2_2_1_1_0_0 64 rfl rfl d
  funext a
  refine Fin.ext ?_
  match a with
  | ⟨0, _⟩ =>
    show (dot_S16x128x64_S16x1024x64_S16x128x1024_2_2_1_1_0_0.rhsIdx (ix3 h q k) _ 0).val = h.val
    unfold DotDims.rhsIdx
    rw [dif_pos (show (0 : Fin S16x1024x64.rank) ∈ dot_S16x128x64_S16x1024x64_S16x128x1024_2_2_1_1_0_0.rhsBatch by decide)]
    rfl
  | ⟨1, _⟩ =>
    show (dot_S16x128x64_S16x1024x64_S16x128x1024_2_2_1_1_0_0.rhsIdx (ix3 h q k) _ 1).val = k.val
    unfold DotDims.rhsIdx
    rw [dif_neg (show ¬(1 : Fin S16x1024x64.rank) ∈ dot_S16x128x64_S16x1024x64_S16x128x1024_2_2_1_1_0_0.rhsBatch by decide),
      dif_pos (show (1 : Fin S16x1024x64.rank) ∈ dot_S16x128x64_S16x1024x64_S16x128x1024_2_2_1_1_0_0.rhsNonContracting by decide)]
    rfl
  | ⟨2, _⟩ =>
    exact (dot_S16x128x64_S16x1024x64_S16x128x1024_2_2_1_1_0_0.rhsIdx_val_of_single (cr := 2) rfl (ix3 h q k) _).trans hd

/-- The batched product into the zero accumulator, read at (h, q, k): the inner product over the 64 features of the
    left operand's row (h, q) with the right operand's row (h, k). -/
private theorem matmul_ix (a : FVec Ideal S16x128x64 .f32) (b : FVec Ideal S16x1024x64 .f32)
    (h : Fin 16) (q : Fin 128) (k : Fin 1024) :
    matmul (F := Ideal) dot_S16x128x64_S16x1024x64_S16x128x1024_2_2_1_1_0_0 none a b (constant (F := Ideal) S16x128x1024 .f32 0x00000000#32) (ix3 h q k)
      = ∑ d : Fin 64, a (ix3 h q d) * b (ix3 h k d) := by
  refine (Ideal.matmul_constant_zero_apply dot_S16x128x64_S16x1024x64_S16x128x1024_2_2_1_1_0_0 none a b (ix3 h q k)).trans ?_
  rw [← Equiv.sum_comp (contrEquiv1 dot_S16x128x64_S16x1024x64_S16x128x1024_2_2_1_1_0_0 64 rfl rfl).symm]
  refine Finset.sum_congr rfl fun d _ => ?_
  rw [lhsIdx_ix, rhsIdx_ix]

/-! ## The masked, scaled scores, and the payload -/

/-- The body's first thirteen operations: the scores as a function of the three loaded blocks. -/
private def scores (x0 : Vec Ideal S1x16x128x64 .f32) (x1 : Vec Ideal S1x16x1024x64 .f32) (x3 : Vec Ideal S1x16x128x1024 .i32) :
    FVec Ideal S16x128x1024 .f32 :=
  select
    (cmpi .ne (shapeCast S16x128x1024 x3 shapeCasts_S1x16x128x1024_S16x128x1024 : IVec S16x128x1024 32) (constantI S16x128x1024 32 0#32))
    (broadcast S16x128x1024 (Scalar.ofBits (F := Ideal) .f32 0xCE6E6B28#32))
    (mulf
      (matmul (F := Ideal) dot_S16x128x64_S16x1024x64_S16x128x1024_2_2_1_1_0_0 none
        (shapeCast S16x128x64 x0 shapeCasts_S1x16x128x64_S16x128x64 : FVec Ideal S16x128x64 .f32)
        (shapeCast S16x1024x64 x1 shapeCasts_S1x16x1024x64_S16x1024x64 : FVec Ideal S16x1024x64 .f32)
        (constant (F := Ideal) S16x128x1024 .f32 0x00000000#32))
      (broadcast S16x128x1024 (Scalar.ofBits (F := Ideal) .f32 0x3E000000#32)))

/-- The payload is the softmax tail of the scores. -/
private theorem pay4_eq (x0 : Vec Ideal S1x16x128x64 .f32) (x1 : Vec Ideal S1x16x1024x64 .f32) (x3 : Vec Ideal S1x16x128x1024 .i32) :
    k0_pay4 (F := Ideal) x0 x1 x3 = softTail (scores x0 x1 x3) := rfl

/-- The scores read at (h, q, k): the specification's masked, scaled score of query row (0, h, q) against key row
    (0, h, k), the mask bit being "the word at (0, h, q, k) is not zero". -/
private theorem scores_apply (x0 : Vec Ideal S1x16x128x64 .f32) (x1 : Vec Ideal S1x16x1024x64 .f32) (x3 : Vec Ideal S1x16x128x1024 .i32)
    (h : Fin 16) (q : Fin 128) (k : Fin 1024) :
    scores x0 x1 x3 (ix3 h q k)
      = Cert.Softmax.scoreRow (fun d => x0 (ix4 0 h q d)) (fun k' d => x1 (ix4 0 h k' d))
          (fun k' => Cert.Softmax.maskBit (x3 (ix4 0 h q k'))) k := by
  unfold scores Cert.Softmax.scoreRow
  rw [select_apply, mulf_apply, matmul_ix]
  show Scalar.select (IntOp.cmpi .ne (shapeCast S16x128x1024 x3 shapeCasts_S1x16x128x1024_S16x128x1024 (ix3 h q k)) 0#32)
      (Ideal.ofBits .f32 0xCE6E6B28#32)
      ((∑ d : Fin 64, shapeCast S16x128x64 x0 shapeCasts_S1x16x128x64_S16x128x64 (ix3 h q d)
          * shapeCast S16x1024x64 x1 shapeCasts_S1x16x1024x64_S16x1024x64 (ix3 h k d)) * Ideal.ofBits .f32 0x3E000000#32) = _
  rw [shapeCast_1abc_abc_apply x3]
  refine congrArg (fun t : EReal => Scalar.select (Cert.Softmax.maskBit (x3 (ix4 0 h q k))) (Ideal.ofBits .f32 0xCE6E6B28#32)
    (t * Ideal.ofBits .f32 0x3E000000#32)) (Finset.sum_congr rfl fun d _ => ?_)
  rw [shapeCast_1abc_abc_apply x0, shapeCast_1abc_abc_apply x1]

theorem pay4_apply (x0 : Vec Ideal S1x16x128x64 .f32) (x1 : Vec Ideal S1x16x1024x64 .f32) (x3 : Vec Ideal S1x16x128x1024 .i32)
    (h : Fin 16) (q : Fin 128) (k : Fin 1024) :
    k0_pay4 (F := Ideal) x0 x1 x3 (ix3 h q k)
      = Cert.Softmax.attnRow (fun d => x0 (ix4 0 h q d)) (fun k' d => x1 (ix4 0 h k' d))
          (fun k' => Cert.Softmax.maskBit (x3 (ix4 0 h q k'))) k := by
  rw [pay4_eq, softTail_apply]
  unfold Cert.Softmax.attnRow
  refine congrArg (fun s : Fin 1024 → EReal => Cert.Softmax.softRow s k) (funext fun k' => ?_)
  exact scores_apply x0 x1 x3 h q k'

end Cert.PaySpec
end
-- ==== Proof.PayRest.lean ====
/-
  The kernel body's remaining payloads, each read at one entry.

  Besides the block of attention weights (a [16, 128, 1024] array, taken here as given and never opened), the body
  stores or carries five more values, and each is that block or an operand moved through layout operations, a sum, or a
  product summed over the keys:
  • the weights with a leading unit axis added read, at (0, h, q, k), the weights at (h, q, k);
  • the product of the weights with the value block, accumulated into zeros, reads at (h, q, d) the sum over the 1024
    keys k of the weight at (h, q, k) times the value at (0, h, k, d);
  • a [16, 128, 64] array with a leading unit axis added reads, at (0, h, q, d), the array at (h, q, d);
  • the zero fill with a leading unit axis added reads 0 everywhere;
  • what was in the column-sum block plus the block's weights summed over its 128 query rows reads, at (0, h, k), the
    old entry there plus the sum over q of the weight at (h, q, k).
-/
import proofs.«112515_j72722386256060_1_alg».proof.Proof.Spec
import proofs.«112515_j72722386256060_1_alg».proof.Proof.Gen.KernelIdeal.Skeleton
import Idealize.ShloMosaic.Lib.ValueLayout

noncomputable section
namespace Cert.PaySpec
open Cert.KernelIdeal Cert.KernelIdeal.Gen Idealize.ShloMosaic Idealize.ShloMosaic.ValueIdx

/-- The weights with a leading unit axis added: (0, h, q, k) reads the weights at (h, q, k). -/
theorem pay5_apply (x0 : Vec Ideal S1x16x128x64 .f32) (x1 : Vec Ideal S1x16x1024x64 .f32) (x3 : Vec Ideal S1x16x128x1024 .i32)
    (h : Fin 16) (q : Fin 128) (k : Fin 1024) :
    k0_pay5 (F := Ideal) x0 x1 x3 (ix4 0 h q k) = k0_pay4 (F := Ideal) x0 x1 x3 (ix3 h q k) := by
  unfold k0_pay5
  exact shapeCast_abc_1abc_apply _ _ 0 h q k

/-- The second product's dimension numbers: batch axis 0 on both sides; the weights contract their axis 2 (the keys),
the value block its axis 1. -/
private abbrev D := dot_S16x128x1024_S16x1024x64_S16x128x64_2_1_1_2_0_0

private theorem lhs_0 (i : S16x128x64.Idx) (κ : D.contr.Idx) : (D.lhsIdx i κ 0).val = (i 0).val := by
  unfold DotDims.lhsIdx
  rw [dif_pos (show (0 : Fin S16x128x1024.rank) ∈ D.lhsBatch by decide)]
  rfl
private theorem lhs_1 (i : S16x128x64.Idx) (κ : D.contr.Idx) : (D.lhsIdx i κ 1).val = (i 1).val := by
  unfold DotDims.lhsIdx
  rw [dif_neg (show ¬(1 : Fin S16x128x1024.rank) ∈ D.lhsBatch by decide),
    dif_pos (show (1 : Fin S16x128x1024.rank) ∈ D.lhsNonContracting by decide)]
  rfl
private theorem lhs_2 (i : S16x128x64.Idx) (κ : D.contr.Idx) : (D.lhsIdx i κ 2).val = (κ ⟨0, by decide⟩).val :=
  D.lhsIdx_val_of_single rfl i κ
private theorem rhs_0 (i : S16x128x64.Idx) (κ : D.contr.Idx) : (D.rhsIdx i κ 0).val = (i 0).val := by
  unfold DotDims.rhsIdx
  rw [dif_pos (show (0 : Fin S16x1024x64.rank) ∈ D.rhsBatch by decide)]
  rfl
private theorem rhs_1 (i : S16x128x64.Idx) (κ : D.contr.Idx) : (D.rhsIdx i κ 1).val = (κ ⟨0, by decide⟩).val :=
  D.rhsIdx_val_of_single rfl i κ
private theorem rhs_2 (i : S16x128x64.Idx) (κ : D.contr.Idx) : (D.rhsIdx i κ 2).val = (i 2).val := by
  unfold DotDims.rhsIdx
  rw [dif_neg (show ¬(2 : Fin S16x1024x64.rank) ∈ D.rhsBatch by decide),
    dif_pos (show (2 : Fin S16x1024x64.rank) ∈ D.rhsNonContracting by decide)]
  rfl

/-- A batched product of any [16, 128, 1024] array with a [16, 1024, 64] one, accumulated into zeros, reads at (h, q, d)
the sum over k of the products of the entries at (h, q, k) and (h, k, d). -/
private theorem matmul_zero_apply (w : FVec Ideal S16x128x1024 .f32) (v : FVec Ideal S16x1024x64 .f32)
    (h : Fin 16) (q : Fin 128) (d : Fin 64) :
    matmul (F := Ideal) D none w v (constant (F := Ideal) S16x128x64 .f32 0x00000000#32) (ix3 h q d)
      = ∑ k : Fin 1024, w (ix3 h q k) * v (ix3 h k d) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix3 h q d) ((contrEquiv1 D 1024 rfl rfl).symm k) = ix3 h q k := funext fun a => Fin.ext (by
    match a with
    | ⟨0, _⟩ => exact lhs_0 _ _
    | ⟨1, _⟩ => exact lhs_1 _ _
    | ⟨2, _⟩ => exact (lhs_2 _ _).trans hk)
  have er : D.rhsIdx (ix3 h q d) ((contrEquiv1 D 1024 rfl rfl).symm k) = ix3 h k d := funext fun a => Fin.ext (by
    match a with
    | ⟨0, _⟩ => exact rhs_0 _ _
    | ⟨1, _⟩ => exact (rhs_1 _ _).trans hk
    | ⟨2, _⟩ => exact rhs_2 _ _)
  rw [el, er]

/-- The weights times the value block, accumulated into zeros: (h, q, d) reads the sum over the keys k of the weight at
(h, q, k) times the value at (0, h, k, d). The weights enter as an arbitrary array. -/
theorem pay6_apply (x0 : Vec Ideal S1x16x128x64 .f32) (x1 x2 : Vec Ideal S1x16x1024x64 .f32) (x3 : Vec Ideal S1x16x128x1024 .i32)
    (h : Fin 16) (q : Fin 128) (d : Fin 64) :
    k0_pay6 (F := Ideal) x0 x1 x2 x3 (ix3 h q d)
      = ∑ k : Fin 1024, k0_pay4 (F := Ideal) x0 x1 x3 (ix3 h q k) * x2 (ix4 0 h k d) := by
  unfold k0_pay6
  generalize k0_pay4 (F := Ideal) x0 x1 x3 = w
  refine (matmul_zero_apply w _ h q d).trans ?_
  refine Finset.sum_congr rfl fun k _ => ?_
  rw [shapeCast_1abc_abc_apply]

/-- A [16, 128, 64] array with a leading unit axis added: (0, h, q, d) reads the array at (h, q, d). -/
theorem pay1_apply (v26 : FVec Ideal S16x128x64 .f32) (h : Fin 16) (q : Fin 128) (d : Fin 64) :
    k0_pay1 (F := Ideal) v26 (ix4 0 h q d) = v26 (ix3 h q d) := by
  unfold k0_pay1
  exact shapeCast_abc_1abc_apply _ _ 0 h q d

/-- The zero fill with a leading unit axis added reads 0 at every entry. -/
theorem pay2_apply (h : Fin 16) (k : Fin 1024) : k0_pay2 (F := Ideal) (ix3 0 h k) = 0 := by
  unfold k0_pay2
  refine (shapeCast_ab_1ab_apply _ _ 0 h k).trans ?_
  rw [broadcast_apply]
  exact Ideal.ofBits_zero_f32

/-- The column-sum block's update: (0, h, k) reads what was there plus the sum over the block's 128 query rows q of the
weight at (h, q, k). The reduced index with q put back on axis 1 is (h, q, k), coordinate by coordinate. -/
theorem pay3_apply (v22 : FVec Ideal S16x128x1024 .f32) (v33 : Vec Ideal S1x16x1024 .f32) (h : Fin 16) (k : Fin 1024) :
    k0_pay3 (F := Ideal) v22 v33 (ix3 0 h k) = v33 (ix3 0 h k) + ∑ q : Fin 128, v22 (ix3 h q k) := by
  unfold k0_pay3
  refine (shapeCast_ab_1ab_apply _ _ 0 h k).trans ?_
  rw [addf_apply]
  refine congrArg₂ (· + ·) (shapeCast_1ab_ab_apply _ _ h k) ?_
  refine (Ideal.multiReduction_add_single v22 _ reduces_S16x128x1024_S16x1024 _ _ (ix2 h k)).trans ?_
  refine Finset.sum_congr rfl fun q _ => congrArg v22 ?_
  funext a
  apply Fin.ext
  match a with
  | ⟨0, _⟩ => rfl
  | ⟨1, _⟩ => rfl
  | ⟨2, _⟩ => rfl

end Cert.PaySpec
end
-- ==== Proof.Outputs.lean ====
/-
  The kernel's first two results, as whole arrays.

  At grid point `t` (batch element `t / 8`, query tile `t % 8`) the body computes, from the blocks it loaded, the
  block of attention weights of the tile's 128 query rows against all 1024 keys, and the context block, the weights
  times the value block summed over the keys. Read at an entry through the blocks' positions these are the attention
  weight and the context of that batch element, head and query row `128 * (t % 8) + q`. Every point writes both
  blocks back, distinct points write distinct blocks, and the blocks tile the arrays (row `r` of batch element `b`
  belongs to point `8 * b + r / 128`), so after the run the two arrays hold the attention weights and the context.
-/
import proofs.«112515_j72722386256060_1_alg».proof.Proof.Gen.KernelIdeal.Value
import proofs.«112515_j72722386256060_1_alg».proof.Proof.Spec
import proofs.«112515_j72722386256060_1_alg».proof.Proof.Pieces
import proofs.«112515_j72722386256060_1_alg».proof.Proof.Blocks
import proofs.«112515_j72722386256060_1_alg».proof.Proof.PayAttn
import proofs.«112515_j72722386256060_1_alg».proof.Proof.PayRest
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks

/-- An index of a block whose leading axis has extent one: that coordinate is 0. -/
theorem eq_ix4_unit {n1 n2 n3 : Nat} (y : (⟨4, ![1, n1, n2, n3]⟩ : Shape).Idx) : y = ix4 0 (y 1) (y 2) (y 3) := by
  funext a
  apply Fin.ext
  match a with
  | ⟨0, _⟩ => have h : (y 0).val < 1 := (y 0).isLt; show (y 0).val = 0; omega
  | ⟨1, _⟩ => rfl
  | ⟨2, _⟩ => rfl
  | ⟨3, _⟩ => rfl

variable (m : (ℓ : Loc nD τ sig) → Buf (Elt Ideal) ℓ)

/-- The argument arrays of core `c`. -/
abbrev Qa (c : Dev nD) : Cert.Softmax.A4.Idx → EReal := m ((c : Thread nD τ).loc main_arg0)
abbrev Ka (c : Dev nD) : Cert.Softmax.A4.Idx → EReal := m ((c : Thread nD τ).loc main_arg1)
abbrev Va (c : Dev nD) : Cert.Softmax.A4.Idx → EReal := m ((c : Thread nD τ).loc main_arg2)
abbrev Ma (c : Dev nD) : Cert.Softmax.P4.Idx → BitVec 1 := m ((c : Thread nD τ).loc main_arg3)

/-- The block of weights computed at point `t`, at head `h`, row `q` of the tile and key `k`, is the attention weight
    of that batch element, head, query row `128 * tile + q` and key. -/
theorem wts_apply (c : Dev nD) (t : Fin cfg0.N) (h : Fin 16) (q : Fin 128) (k : Fin 1024) :
    k0_pay4 (F := Ideal) (iblk m c 0 t) (iblk m c 1 t) (iblk m c 3 t) (ix3 h q k)
      = Cert.Softmax.attn (Qa m c) (Ka m c) (Ma m c) (bOf t) h (rowOf (tileOf t) q) k := by
  refine (Cert.PaySpec.pay4_apply (iblk m c 0 t) (iblk m c 1 t) (iblk m c 3 t) h q k).trans ?_
  unfold Cert.Softmax.attn
  have e0 : (fun d : Fin 64 => (iblk m c 0 t : Vec Ideal S1x16x128x64 .f32) (ix4 0 h q d))
      = fun d => Qa m c (ix4 (bOf t) h (rowOf (tileOf t) q) d) := funext fun d => iblk0_apply m c t h q d
  have e1 : (fun (k' : Fin 1024) (d : Fin 64) => (iblk m c 1 t : Vec Ideal S1x16x1024x64 .f32) (ix4 0 h k' d))
      = fun k' d => Ka m c (ix4 (bOf t) h k' d) := funext fun k' => funext fun d => iblk1_apply m c t h k' d
  have e3 : (fun k' : Fin 1024 => Cert.Softmax.maskBit ((iblk m c 3 t : Vec Ideal S1x16x128x1024 .i32) (ix4 0 h q k')))
      = fun k' => Ma m c (ix4 (bOf t) h (rowOf (tileOf t) q) k') := funext fun k' => by
    rw [iblk3_apply m c t h q k']; exact Cert.Softmax.maskBit_setWidth _
  rw [e0, e1, e3]

theorem idx_facts5 : ∀ t : Fin cfg0.N, win0_5.index t 0 = t.val / 8 ∧ win0_5.index t 1 = 0 ∧ win0_5.index t 2 = t.val % 8 ∧ win0_5.index t 3 = 0 :=
  (by decide +kernel : ∀ t : Fin grid0.N, win0_5.index t 0 = t.val / 8 ∧ win0_5.index t 1 = 0 ∧ win0_5.index t 2 = t.val % 8 ∧ win0_5.index t 3 = 0)

theorem idx_facts4 : ∀ t : Fin cfg0.N, win0_4.index t 0 = t.val / 8 ∧ win0_4.index t 1 = 0 ∧ win0_4.index t 2 = t.val % 8 ∧ win0_4.index t 3 = 0 :=
  (by decide +kernel : ∀ t : Fin grid0.N, win0_4.index t 0 = t.val / 8 ∧ win0_4.index t 1 = 0 ∧ win0_4.index t 2 = t.val % 8 ∧ win0_4.index t 3 = 0)

/-- Where entry (h, q, k) of the weights block of point `t` sits in the result array. -/
theorem emb5 (t : Fin cfg0.N) (h : Fin 16) (q : Fin 128) (k : Fin 1024) :
    ((cfg0.win 5).blk t).view.emb (ix4 0 h q k) = ix4 (bOf t) h (rowOf (tileOf t) q) k := by
  funext a
  apply Fin.ext
  have hi := idx_facts5 t
  match a with
  | ⟨0, _⟩ => show win0_5.index t 0 * 1 + 1 * 0 = t.val / 8; rw [hi.1]; omega
  | ⟨1, _⟩ => show win0_5.index t 1 * 16 + 1 * h.val = h.val; rw [hi.2.1]; omega
  | ⟨2, _⟩ => show win0_5.index t 2 * 128 + 1 * q.val = 128 * (t.val % 8) + q.val; rw [hi.2.2.1]; omega
  | ⟨3, _⟩ => show win0_5.index t 3 * 1024 + 1 * k.val = k.val; rw [hi.2.2.2]; omega

/-- Where entry (h, q, d) of the context block of point `t` sits in the result array. -/
theorem emb4 (t : Fin cfg0.N) (h : Fin 16) (q : Fin 128) (d : Fin 64) :
    ((cfg0.win 4).blk t).view.emb (ix4 0 h q d) = ix4 (bOf t) h (rowOf (tileOf t) q) d := by
  funext a
  apply Fin.ext
  have hi := idx_facts4 t
  match a with
  | ⟨0, _⟩ => show win0_4.index t 0 * 1 + 1 * 0 = t.val / 8; rw [hi.1]; omega
  | ⟨1, _⟩ => show win0_4.index t 1 * 16 + 1 * h.val = h.val; rw [hi.2.1]; omega
  | ⟨2, _⟩ => show win0_4.index t 2 * 128 + 1 * q.val = 128 * (t.val % 8) + q.val; rw [hi.2.2.1]; omega
  | ⟨3, _⟩ => show win0_4.index t 3 * 64 + 1 * d.val = d.val; rw [hi.2.2.2]; omega

/-- What every point leaves in the weights block: the softmax block of its loaded blocks. -/
theorem outs5 (c : Dev nD) (t : Fin cfg0.N) :
    (outsAt0 m c t.val t.isLt).2.1 = k0_pay5 (F := Ideal) (iblk m c 0 t) (iblk m c 1 t) (iblk m c 3 t) := by
  by_cases h0 : t.val % 8 = 0
  · rw [outsAt0_A m c t h0]
    dsimp only
    exact Cert.KernelIdeal.Pieces.out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)
  · rw [outsAt0_B m c t h0]
    dsimp only
    exact Cert.KernelIdeal.Pieces.out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2

/-- What every point leaves in the context block: the weights times the value block. -/
theorem outs4 (c : Dev nD) (t : Fin cfg0.N) :
    (outsAt0 m c t.val t.isLt).1 = k0_pay1 (F := Ideal) (k0_pay6 (iblk m c 0 t) (iblk m c 1 t) (iblk m c 2 t) (iblk m c 3 t)) := by
  by_cases h0 : t.val % 8 = 0
  · rw [outsAt0_A m c t h0]
    dsimp only
    exact Cert.KernelIdeal.Pieces.out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)
  · rw [outsAt0_B m c t h0]
    dsimp only
    exact Cert.KernelIdeal.Pieces.out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2

/-- What point `t` writes back to the weights array is its block of the attention weights. -/
theorem flushed5_eq (c : Dev nD) (t : Fin cfg0.N) :
    (dats m 0 c).flushed 5 t = ((cfg0.win 5).blk t).view.read (Elt Ideal) (Cert.Softmax.attnArr (Qa m c) (Ka m c) (Ma m c)) := by
  rw [Cert.KernelIdeal.Value.flushed5, outs5]
  funext y
  obtain ⟨h, q, k, rfl⟩ : ∃ (h : Fin 16) (q : Fin 128) (k : Fin 1024), y = ix4 0 h q k :=
    ⟨y 1, y 2, y 3, eq_ix4_unit (n1 := 16) (n2 := 128) (n3 := 1024) y⟩
  show k0_pay5 (F := Ideal) (iblk m c 0 t) (iblk m c 1 t) (iblk m c 3 t) (ix4 0 h q k)
    = Cert.Softmax.attnArr (Qa m c) (Ka m c) (Ma m c) (((cfg0.win 5).blk t).view.emb (ix4 0 h q k))
  rw [emb5]
  refine (Cert.PaySpec.pay5_apply (iblk m c 0 t) (iblk m c 1 t) (iblk m c 3 t) h q k).trans ?_
  exact wts_apply m c t h q k

/-- What point `t` writes back to the context array is its block of the context. -/
theorem flushed4_eq (c : Dev nD) (t : Fin cfg0.N) :
    (dats m 0 c).flushed 4 t = ((cfg0.win 4).blk t).view.read (Elt Ideal) (Cert.Softmax.ctxArr (Qa m c) (Ka m c) (Va m c) (Ma m c)) := by
  rw [Cert.KernelIdeal.Value.flushed4, outs4]
  funext y
  obtain ⟨h, q, d, rfl⟩ : ∃ (h : Fin 16) (q : Fin 128) (d : Fin 64), y = ix4 0 h q d :=
    ⟨y 1, y 2, y 3, eq_ix4_unit (n1 := 16) (n2 := 128) (n3 := 64) y⟩
  show k0_pay1 (F := Ideal) (k0_pay6 (iblk m c 0 t) (iblk m c 1 t) (iblk m c 2 t) (iblk m c 3 t)) (ix4 0 h q d)
    = Cert.Softmax.ctxArr (Qa m c) (Ka m c) (Va m c) (Ma m c) (((cfg0.win 4).blk t).view.emb (ix4 0 h q d))
  rw [emb4]
  refine (Cert.PaySpec.pay1_apply _ h q d).trans ?_
  refine (Cert.PaySpec.pay6_apply (iblk m c 0 t) (iblk m c 1 t) (iblk m c 2 t) (iblk m c 3 t) h q d).trans ?_
  show _ = ∑ k : Fin 1024, Cert.Softmax.attn (Qa m c) (Ka m c) (Ma m c) (bOf t) h (rowOf (tileOf t) q) k * Va m c (ix4 (bOf t) h k d)
  refine Finset.sum_congr rfl fun k _ => ?_
  rw [wts_apply m c t h q k, iblk2_apply m c t h k d]

/-! ## The blocks cover the arrays -/

theorem mem_blk5 (t : Fin cfg0.N) (i : S8x16x1024x1024.Idx) :
    i ∈ ((cfg0.win 5).blk t).view.set ↔ ∀ a : Fin 4, win0_5.index t a * S1x16x128x1024.size a ≤ (i a).val ∧ (i a).val < win0_5.index t a * S1x16x128x1024.size a + S1x16x128x1024.size a := by
  show i ∈ ((View.whole main_v1_1).slice (win0_5.rect t)).set ↔ _
  rw [View.set_slice_whole, Rect.mem_set_unit]
  exact Iff.rfl

theorem mem_blk4 (t : Fin cfg0.N) (i : S8x16x1024x64.Idx) :
    i ∈ ((cfg0.win 4).blk t).view.set ↔ ∀ a : Fin 4, win0_4.index t a * S1x16x128x64.size a ≤ (i a).val ∧ (i a).val < win0_4.index t a * S1x16x128x64.size a + S1x16x128x64.size a := by
  show i ∈ ((View.whole main_v1_0).slice (win0_4.rect t)).set ↔ _
  rw [View.set_slice_whole, Rect.mem_set_unit]
  exact Iff.rfl

/-- Row `r` of batch element `b` is written by the point of that batch element and tile `r / 128`. -/
theorem cover5 (i : S8x16x1024x1024.Idx) : ∃ t : Fin cfg0.N, (cfg0.win 5).flush t = true ∧ i ∈ ((cfg0.win 5).blk t).view.set := by
  have hN : cfg0.N = 64 := N_0
  have h0 : (i 0).val < 8 := (i 0).isLt
  have h1 : (i 1).val < 16 := (i 1).isLt
  have h2 : (i 2).val < 1024 := (i 2).isLt
  have h3 : (i 3).val < 1024 := (i 3).isLt
  obtain ⟨t, tv⟩ : ∃ t : Fin cfg0.N, t.val = 8 * (i 0).val + (i 2).val / 128 := ⟨⟨8 * (i 0).val + (i 2).val / 128, by rw [hN]; omega⟩, rfl⟩
  refine ⟨t, flush0_5 t, ?_⟩
  rw [mem_blk5]
  have hi := idx_facts5 t
  intro a
  match a with
  | ⟨0, _⟩ => show win0_5.index t 0 * 1 ≤ (i 0).val ∧ (i 0).val < win0_5.index t 0 * 1 + 1; rw [hi.1]; omega
  | ⟨1, _⟩ => show win0_5.index t 1 * 16 ≤ (i 1).val ∧ (i 1).val < win0_5.index t 1 * 16 + 16; rw [hi.2.1]; omega
  | ⟨2, _⟩ => show win0_5.index t 2 * 128 ≤ (i 2).val ∧ (i 2).val < win0_5.index t 2 * 128 + 128; rw [hi.2.2.1]; omega
  | ⟨3, _⟩ => show win0_5.index t 3 * 1024 ≤ (i 3).val ∧ (i 3).val < win0_5.index t 3 * 1024 + 1024; rw [hi.2.2.2]; omega

theorem cover4 (i : S8x16x1024x64.Idx) : ∃ t : Fin cfg0.N, (cfg0.win 4).flush t = true ∧ i ∈ ((cfg0.win 4).blk t).view.set := by
  have hN : cfg0.N = 64 := N_0
  have h0 : (i 0).val < 8 := (i 0).isLt
  have h1 : (i 1).val < 16 := (i 1).isLt
  have h2 : (i 2).val < 1024 := (i 2).isLt
  have h3 : (i 3).val < 64 := (i 3).isLt
  obtain ⟨t, tv⟩ : ∃ t : Fin cfg0.N, t.val = 8 * (i 0).val + (i 2).val / 128 := ⟨⟨8 * (i 0).val + (i 2).val / 128, by rw [hN]; omega⟩, rfl⟩
  refine ⟨t, flush0_4 t, ?_⟩
  rw [mem_blk4]
  have hi := idx_facts4 t
  intro a
  match a with
  | ⟨0, _⟩ => show win0_4.index t 0 * 1 ≤ (i 0).val ∧ (i 0).val < win0_4.index t 0 * 1 + 1; rw [hi.1]; omega
  | ⟨1, _⟩ => show win0_4.index t 1 * 16 ≤ (i 1).val ∧ (i 1).val < win0_4.index t 1 * 16 + 16; rw [hi.2.1]; omega
  | ⟨2, _⟩ => show win0_4.index t 2 * 128 ≤ (i 2).val ∧ (i 2).val < win0_4.index t 2 * 128 + 128; rw [hi.2.2.1]; omega
  | ⟨3, _⟩ => show win0_4.index t 3 * 64 ≤ (i 3).val ∧ (i 3).val < win0_4.index t 3 * 64 + 64; rw [hi.2.2.2]; omega

/-- After the run the weights array holds the attention weights. -/
theorem final5 (c : Dev nD) : (dats m 0 c).arrAt 5 cfg0.N = Cert.Softmax.attnArr (Qa m c) (Ka m c) (Ma m c) :=
  (dats m 0 c).arrAt_eq_of_cover 5 (Cert.Softmax.attnArr (Qa m c) (Ka m c) (Ma m c)) (fun t _ => flushed5_eq m c t) cover5

/-- After the run the context array holds the context. -/
theorem final4 (c : Dev nD) : (dats m 0 c).arrAt 4 cfg0.N = Cert.Softmax.ctxArr (Qa m c) (Ka m c) (Va m c) (Ma m c) :=
  (dats m 0 c).arrAt_eq_of_cover 4 (Cert.Softmax.ctxArr (Qa m c) (Ka m c) (Va m c) (Ma m c)) (fun t _ => flushed4_eq m c t) cover4

end Cert.KernelIdeal.Final

end
-- ==== Proof.LibBlockSum.lean ====
/-
  Blocked sums and running accumulators, over any commutative additive monoid (the extended reals among them:
  their addition is commutative and associative with `0` neutral, so none of this asks for finiteness).

  * `sum_blocks`: a sum of `n * B` terms is the sum over `n` consecutive blocks of the `B` terms in each.
  * `acc`: an accumulator that starts at `0` and adds one summand per step; `acc_zero`, `acc_succ` are its
    two steps and `acc_last_blocks` says that after the last of `n` block sums it holds the whole sum.
-/
import Idealize.ShloMosaic.Lib.ValueIdx

namespace Cert.BlockSum

variable {M : Type*} [AddCommMonoid M]

/-- A sum over `Fin (n * B)` is the sum over the blocks `b : Fin n` of the sums over the positions
    `p : Fin B` inside a block, the term at `B * b + p`. -/
theorem sum_blocks (n B : ℕ) (f : ℕ → M) :
    ∑ k : Fin (n * B), f k.val = ∑ b : Fin n, ∑ p : Fin B, f (B * b.val + p.val) := by
  rw [← Finset.sum_product', Finset.univ_product_univ, ← Equiv.sum_comp finProdFinEquiv]
  refine Finset.sum_congr rfl (fun x _ => ?_)
  obtain ⟨b, p⟩ := x
  show f (p.val + B * b.val) = f (B * b.val + p.val)
  rw [Nat.add_comm]

/-- The accumulator after step `j`: `0`, then the summands `g 0 … g j` added in order. -/
def acc (g : ℕ → M) (j : ℕ) : M := 0 + ∑ b ∈ Finset.range (j + 1), g b

/-- After the first step the accumulator holds `0 + g 0`. -/
theorem acc_zero (g : ℕ → M) : acc g 0 = 0 + g 0 := by
  unfold acc
  rw [Finset.sum_range_one]

/-- Each later step adds its summand to what the step before left. -/
theorem acc_succ (g : ℕ → M) (j : ℕ) : acc g (j + 1) = acc g j + g (j + 1) := by
  unfold acc
  rw [Finset.sum_range_succ _ (j + 1), add_assoc]

/-- When the summands are the `n` block sums of `f`, the accumulator after the last block holds the whole sum. -/
theorem acc_last_blocks (n B : ℕ) (f : ℕ → M) :
    acc (fun b => ∑ p : Fin B, f (B * b + p.val)) n = ∑ k : Fin ((n + 1) * B), f k.val := by
  unfold acc
  rw [zero_add, Finset.sum_range (fun b => ∑ p : Fin B, f (B * b + p.val))]
  exact (sum_blocks (n + 1) B f).symm

end Cert.BlockSum
-- ==== Proof.ColSums.lean ====
/-
  The kernel's third result: the attention weights summed over the 1024 queries.

  The block of column sums of a batch element stays in place over that batch element's eight query tiles. The first
  tile stores zeros and adds its own column sums (the sum of its weights over its 128 rows); each later tile adds
  its column sums to what the tile before left; the block is written back after the eighth. So after tile `j` the
  block holds 0 plus the sums of tiles 0 … j, by induction over the grid points, and after the eighth the sum over
  all 1024 rows: a sum of 8 * 128 terms taken 128 at a time. Addition of extended reals is commutative and
  associative with 0 neutral, so no finiteness is asked for.
-/
import proofs.«112515_j72722386256060_1_alg».proof.Proof.Outputs
import proofs.«112515_j72722386256060_1_alg».proof.Proof.LibBlockSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks

variable (m : (ℓ : Loc nD τ sig) → Buf (Elt Ideal) ℓ)

/-- The weights of one batch element, head and key by query row NUMBER (0 past the last row). -/
def colF (c : Dev nD) (b : Fin 8) (h : Fin 16) (k : Fin 1024) (r : ℕ) : EReal :=
  if hr : r < 1024 then Cert.Softmax.attn (Qa m c) (Ka m c) (Ma m c) b h ⟨r, hr⟩ k else 0

/-- An index of a block whose leading axis has extent one: that coordinate is 0. -/
theorem eq_ix3_unit {n1 n2 : Nat} (y : (⟨3, ![1, n1, n2]⟩ : Shape).Idx) : y = ix3 0 (y 1) (y 2) := by
  funext a
  apply Fin.ext
  match a with
  | ⟨0, _⟩ => have h : (y 0).val < 1 := (y 0).isLt; show (y 0).val = 0; omega
  | ⟨1, _⟩ => rfl
  | ⟨2, _⟩ => rfl

theorem idx_facts6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

theorem emb6 (t : Fin cfg0.N) (h : Fin 16) (k : Fin 1024) :
    ((cfg0.win 6).blk t).view.emb (ix3 0 h k) = ix3 (bOf t) h k := by
  funext a
  apply Fin.ext
  have hi := idx_facts6 t
  match a with
  | ⟨0, _⟩ => show win0_6.index t 0 * 1 + 1 * 0 = t.val / 8; rw [hi.1]; omega
  | ⟨1, _⟩ => show win0_6.index t 1 * 16 + 1 * h.val = h.val; rw [hi.2.1]; omega
  | ⟨2, _⟩ => show win0_6.index t 2 * 1024 + 1 * k.val = k.val; rw [hi.2.2]; omega

/-- The column sums of the tile of point `t`: the sum over the tile's 128 rows of the weights. -/
theorem tile_sum (c : Dev nD) (t : Fin cfg0.N) (b : Fin 8) (hb : b.val = t.val / 8) (h : Fin 16) (k : Fin 1024) :
    ∑ q : Fin 128, k0_pay4 (F := Ideal) (iblk m c 0 t) (iblk m c 1 t) (iblk m c 3 t) (ix3 h q k)
      = ∑ p : Fin 128, colF m c b h k (128 * (t.val % 8) + p.val) := by
  refine Finset.sum_congr rfl fun q _ => ?_
  rw [wts_apply m c t h q k]
  have hq : q.val < 128 := q.isLt
  unfold colF
  rw [dif_pos (by omega)]
  have eb : bOf t = b := Fin.ext hb.symm
  rw [eb]
  rfl

/-- THE RUNNING SUM. After the body at point `n` the column-sum block holds, for each head and key, the sum of the
    weights over the query tiles done so far of the point's batch element. -/
theorem outs6 (c : Dev nD) : ∀ (n : ℕ) (hn : n < cfg0.N) (b : Fin 8) (hb : b.val = n / 8) (h : Fin 16) (k : Fin 1024),
    (outsAt0 m c n hn).2.2 (ix3 0 h k)
      = Cert.BlockSum.acc (fun j => ∑ p : Fin 128, colF m c b h k (128 * j + p.val)) (n % 8)
  | 0, hn, b, hb, h, k => by
    have e : (outsAt0 m c 0 hn).2.2 = k0_pay3 (F := Ideal) (k0_pay4 (iblk m c 0 ⟨0, hn⟩) (iblk m c 1 ⟨0, hn⟩) (iblk m c 3 ⟨0, hn⟩)) (k0_pay2 (F := Ideal)) := by
      have h0 : (⟨0, hn⟩ : Fin cfg0.N).val % 8 = 0 := rfl
      rw [outsAt0_A m c ⟨0, hn⟩ h0]
      dsimp only
      exact (fun t : Fin cfg0.N => fun h0 : t.val % 8 = 0 => Cert.KernelIdeal.Pieces.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) ⟨0, hn⟩ h0
    rw [e]
    refine (Cert.PaySpec.pay3_apply _ _ h k).trans ?_
    rw [Cert.PaySpec.pay2_apply h k, tile_sum m c ⟨0, hn⟩ b hb h k]
    show _ = Cert.BlockSum.acc _ 0
    rw [Cert.BlockSum.acc_zero]
    rfl
  | n + 1, hn, b, hb, h, k => by
    have hN : cfg0.N = 64 := N_0
    by_cases h0 : (n + 1) % 8 = 0
    · have e : (outsAt0 m c (n + 1) hn).2.2 = k0_pay3 (F := Ideal) (k0_pay4 (iblk m c 0 ⟨n + 1, hn⟩) (iblk m c 1 ⟨n + 1, hn⟩) (iblk m c 3 ⟨n + 1, hn⟩)) (k0_pay2 (F := Ideal)) := by
        rw [outsAt0_A m c ⟨n + 1, hn⟩ h0]
        dsimp only
        exact (fun t : Fin cfg0.N => fun h0 : t.val % 8 = 0 => Cert.KernelIdeal.Pieces.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) ⟨n + 1, hn⟩ h0
      rw [e]
      refine (Cert.PaySpec.pay3_apply _ _ h k).trans ?_
      rw [Cert.PaySpec.pay2_apply h k, tile_sum m c ⟨n + 1, hn⟩ b hb h k]
      show 0 + ∑ p : Fin 128, colF m c b h k (128 * ((n + 1) % 8) + p.val) = Cert.BlockSum.acc _ ((n + 1) % 8)
      rw [h0, Cert.BlockSum.acc_zero]
    · have e : (outsAt0 m c (n + 1) hn).2.2 = k0_pay3 (F := Ideal) (k0_pay4 (iblk m c 0 ⟨n + 1, hn⟩) (iblk m c 1 ⟨n + 1, hn⟩) (iblk m c 3 ⟨n + 1, hn⟩)) (outsAt0 m c n (Nat.lt_of_succ_lt hn)).2.2 := by
        rw [outsAt0_B m c ⟨n + 1, hn⟩ h0]
        dsimp only
        exact (fun t : Fin cfg0.N => fun h0 : ¬t.val % 8 = 0 => Cert.KernelIdeal.Pieces.out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) ⟨n + 1, hn⟩ h0
      rw [e]
      refine (Cert.PaySpec.pay3_apply _ _ h k).trans ?_
      rw [outs6 c n (Nat.lt_of_succ_lt hn) b (by omega) h k, tile_sum m c ⟨n + 1, hn⟩ b hb h k]
      show Cert.BlockSum.acc _ (n % 8) + ∑ p : Fin 128, colF m c b h k (128 * ((n + 1) % 8) + p.val) = Cert.BlockSum.acc _ ((n + 1) % 8)
      have h1 : (n + 1) % 8 = n % 8 + 1 := by omega
      rw [h1, Cert.BlockSum.acc_succ]

theorem mem_blk6 (t : Fin cfg0.N) (i : S8x16x1024.Idx) :
    i ∈ ((cfg0.win 6).blk t).view.set ↔ ∀ a : Fin 3, win0_6.index t a * S1x16x1024.size a ≤ (i a).val ∧ (i a).val < win0_6.index t a * S1x16x1024.size a + S1x16x1024.size a := by
  show i ∈ ((View.whole main_v1_2).slice (win0_6.rect t)).set ↔ _
  rw [View.set_slice_whole, Rect.mem_set_unit]
  exact Iff.rfl

/-- The block of column sums is written back after the last tile of each batch element, holding the whole sums. -/
theorem flushed6_eq (c : Dev nD) (t : Fin cfg0.N) (hf : (cfg0.win 6).flush t = true) :
    (dats m 0 c).flushed 6 t = ((cfg0.win 6).blk t).view.read (Elt Ideal) (Cert.Softmax.colArr (Qa m c) (Ka m c) (Ma m c)) := by
  have h7 : t.val % 8 = 7 := (flush0_6 t).mp hf
  rw [Cert.KernelIdeal.Value.flushed6]
  funext y
  obtain ⟨h, k, rfl⟩ : ∃ (h : Fin 16) (k : Fin 1024), y = ix3 0 h k := ⟨y 1, y 2, eq_ix3_unit (n1 := 16) (n2 := 1024) y⟩
  show (outsAt0 m c t.val t.isLt).2.2 (ix3 0 h k) = Cert.Softmax.colArr (Qa m c) (Ka m c) (Ma m c) (((cfg0.win 6).blk t).view.emb (ix3 0 h k))
  rw [emb6, outs6 m c t.val t.isLt (bOf t) rfl h k, h7, Cert.BlockSum.acc_last_blocks 7 128 (colF m c (bOf t) h k)]
  show ∑ r : Fin 1024, colF m c (bOf t) h k r.val = ∑ q : Fin 1024, Cert.Softmax.attn (Qa m c) (Ka m c) (Ma m c) (bOf t) h q k
  refine Finset.sum_congr rfl fun r _ => ?_
  unfold colF
  rw [dif_pos r.isLt]

theorem cover6 (i : S8x16x1024.Idx) : ∃ t : Fin cfg0.N, (cfg0.win 6).flush t = true ∧ i ∈ ((cfg0.win 6).blk t).view.set := by
  have hN : cfg0.N = 64 := N_0
  have h0 : (i 0).val < 8 := (i 0).isLt
  have h1 : (i 1).val < 16 := (i 1).isLt
  have h2 : (i 2).val < 1024 := (i 2).isLt
  obtain ⟨t, tv⟩ : ∃ t : Fin cfg0.N, t.val = 8 * (i 0).val + 7 := ⟨⟨8 * (i 0).val + 7, by rw [hN]; omega⟩, rfl⟩
  refine ⟨t, (flush0_6 t).mpr (by omega), ?_⟩
  rw [mem_blk6]
  have hi := idx_facts6 t
  intro a
  match a with
  | ⟨0, _⟩ => show win0_6.index t 0 * 1 ≤ (i 0).val ∧ (i 0).val < win0_6.index t 0 * 1 + 1; rw [hi.1]; omega
  | ⟨1, _⟩ => show win0_6.index t 1 * 16 ≤ (i 1).val ∧ (i 1).val < win0_6.index t 1 * 16 + 16; rw [hi.2.1]; omega
  | ⟨2, _⟩ => show win0_6.index t 2 * 1024 ≤ (i 2).val ∧ (i 2).val < win0_6.index t 2 * 1024 + 1024; rw [hi.2.2]; omega

/-- After the run the column-sum array holds the weights summed over the 1024 queries. -/
theorem final6 (c : Dev nD) : (dats m 0 c).arrAt 6 cfg0.N = Cert.Softmax.colArr (Qa m c) (Ka m c) (Ma m c) :=
  (dats m 0 c).arrAt_eq_of_cover 6 (Cert.Softmax.colArr (Qa m c) (Ka m c) (Ma m c)) (flushed6_eq m c) cover6

end Cert.KernelIdeal.Final
end
-- ==== Proof.lean ====
/-
  Masked scaled-dot-product attention, [8, 16, 1024, 64] queries, keys and values, a Boolean mask [8, 16, 1024, 1024]:
  the kernel against its array-language reference, over the extended reals.

  Both programs compute, for every batch element, head and query row, the scores (the inner products of the query row
  with the 1024 key rows, times 1/8, with −10⁹ where the mask is set), their softmax along the keys (the exponential
  of the score minus the row's maximum, over the sum of those exponentials), and return three arrays: the context
  (the weights times the value rows, summed over the keys), the weights, and the weights summed over the queries.

  The reference does this on whole arrays; the kernel on a grid of 8 batch elements × 8 tiles of 128 query rows,
  all 16 heads at a time. Proof/Spec.lean states the three results once, row by row. Proof/RefSpec.lean shows the
  reference's three results are those arrays (its extra maximum against −∞ changes nothing). On the kernel's side
  Proof/Pieces.lean reads what the body leaves in its three output blocks as values of the loaded blocks,
  Proof/PayAttn.lean and Proof/PayRest.lean read those values at an entry, Proof/Blocks.lean places the loaded
  blocks in the argument arrays, Proof/Outputs.lean assembles the weights and the context (every point writes
  its own blocks, and they tile the arrays) and Proof/ColSums.lean the sums over the queries, which the kernel
  accumulates tile by tile from zero: a sum of 1024 terms taken 128 at a time. No step needs the inputs finite.
  The kernel's idealization rewrote nothing, so that conjunct is trivial; the frames of the two kernels are the
  generated ones and the reference's frame is its run with the results dropped.
-/
import proofs.«112515_j72722386256060_1_alg».proof.Defs
import proofs.«112515_j72722386256060_1_alg».proof.Proof.Gen.Kernel
import proofs.«112515_j72722386256060_1_alg».proof.Proof.Gen.Kernel.Skeleton
import proofs.«112515_j72722386256060_1_alg».proof.Proof.Gen.Kernel.Launch
import proofs.«112515_j72722386256060_1_alg».proof.Proof.Gen.Kernel.Points
import proofs.«112515_j72722386256060_1_alg».proof.Proof.Gen.Kernel.Frame
import proofs.«112515_j72722386256060_1_alg».proof.Proof.Gen.KernelIdeal
import proofs.«112515_j72722386256060_1_alg».proof.Proof.Gen.KernelIdeal.Skeleton
import proofs.«112515_j72722386256060_1_alg».proof.Proof.Gen.KernelIdeal.Launch
import proofs.«112515_j72722386256060_1_alg».proof.Proof.Gen.KernelIdeal.Points
import proofs.«112515_j72722386256060_1_alg».proof.Proof.Gen.KernelIdeal.Frame
import proofs.«112515_j72722386256060_1_alg».proof.Proof.Gen.ReferenceIdeal
import proofs.«112515_j72722386256060_1_alg».proof.Proof.Gen.KernelIdeal.Value
import proofs.«112515_j72722386256060_1_alg».proof.Proof.Gen.ReferenceIdeal.Run
import proofs.«112515_j72722386256060_1_alg».proof.Proof.Gen.ReferenceIdeal.Read
import proofs.«112515_j72722386256060_1_alg».proof.Proof.Gen.Pre_finite_inputs
import proofs.«112515_j72722386256060_1_alg».proof.Proof.RefSpec
import proofs.«112515_j72722386256060_1_alg».proof.Proof.ColSums
import Idealize.ShloMosaic.Adequacy
import Idealize.ShloMosaic.Init

noncomputable section

namespace Cert.Proof

open Idealize.ShloMosaic Idealize.ShloMosaic.TcCoe Idealize.SL.Sem
open Cert.KernelIdeal.Final (Qa Ka Va Ma)

/-- The idealized kernel's run: its three result arrays end at the context, the attention weights and the weights
    summed over the queries, of its argument arrays, which end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v1_0) = Cert.Softmax.ctxArr (Qa m c) (Ka m c) (Va m c) (Ma m c)
        ∧ r.2.mem ((c.tc : Thread Cert.KernelIdeal.nD Cert.KernelIdeal.τ).loc Cert.KernelIdeal.main_v1_1) = Cert.Softmax.attnArr (Qa m c) (Ka m c) (Ma m c)
        ∧ r.2.mem ((c.tc : Thread Cert.KernelIdeal.nD Cert.KernelIdeal.τ).loc Cert.KernelIdeal.main_v1_2) = Cert.Softmax.colArr (Qa m c) (Ka m c) (Ma m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  (θ_run Cert.KernelIdeal.defs _ _).mono
    (fun r h c => ⟨(h c).1.trans (Cert.KernelIdeal.Final.final4 m c), (h c).2.1.trans (Cert.KernelIdeal.Final.final5 m c),
      (h c).2.2.1.trans (Cert.KernelIdeal.Final.final6 m c), (h c).2.2.2⟩)
    (Cert.KernelIdeal.Value.run_blocks m ρ)

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the four arguments both programs end with the same three arrays: the kernel's run
    ends at the specification's arrays of its arguments, the reference's at the same arrays of its own. -/
theorem algebraic : Cert.algebraic_KernelIdeal_ReferenceIdeal := by
  intro m ρ m' ρ' _ hagree
  refine ⟨fun c => Cert.Softmax.ctxArr (Qa m c) (Ka m c) (Va m c) (Ma m c),
    fun c => Cert.Softmax.attnArr (Qa m c) (Ka m c) (Ma m c),
    fun c => Cert.Softmax.colArr (Qa m c) (Ka m c) (Ma m c), kernel_run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · refine (Cert.ReferenceIdeal.Read.val_main_v16_eq _ _ _ _).trans ((Cert.RefSpec.ref_ctx _ _ _ _).trans ?_)
    rw [(hagree c).1, (hagree c).2.1, (hagree c).2.2.1, (hagree c).2.2.2]
  · refine (Cert.ReferenceIdeal.Read.val_main_v14_eq _ _ _).trans ((Cert.RefSpec.ref_attn _ _ _).trans ?_)
    rw [(hagree c).1, (hagree c).2.1, (hagree c).2.2.2]
  · refine (Cert.ReferenceIdeal.Read.val_main_v15_eq _ _ _).trans ((Cert.RefSpec.ref_col _ _ _).trans ?_)
    rw [(hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
